-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S256x200000 : Shape := ⟨2, ![256, 200000]⟩
abbrev S256x256 : Shape := ⟨2, ![256, 256]⟩
abbrev S256 : Shape := ⟨1, ![256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S200000x256 .f32) (main_arg1 : IVec S256x200000 32) (main_arg2 : FVec F S256x256 .f32) (main_arg3 : FVec F S256 .f32) (main_arg4 : FVec F S256x256 .f32) (main_arg5 : FVec F S256 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S200000x256 : Shape := ⟨2, ![200000, 256]⟩
abbrev S256x200000 : Shape := ⟨2, ![256, 200000]⟩
abbrev S256x256 : Shape := ⟨2, ![256, 256]⟩
abbrev S256 : Shape := ⟨1, ![256]⟩
abbrev S1x256 : Shape := ⟨2, ![1, 256]⟩
abbrev S2x256x256 : Shape := ⟨3, ![2, 256, 256]⟩
abbrev S4096x256 : Shape := ⟨2, ![4096, 256]⟩
abbrev S256x4096 : Shape := ⟨2, ![256, 4096]⟩
abbrev S1x256x256 : Shape := ⟨3, ![1, 256, 256]⟩
abbrev S4096x1 : Shape := ⟨2, ![4096, 1]⟩

abbrev nBuf : Space → Nat
  | .hbm => 18
  | .vmem => 11
  | .smem => 0
  | _ => 0

abbrev bufTy : (tb : Table) → Fin (tcTables nBuf tb) → BufTy
  | .hbm, ⟨0, _⟩ => ⟨S200000x256, .f32⟩
  | .hbm, ⟨1, _⟩ => ⟨S256x200000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .bf16⟩
  | .hbm, ⟨8, _⟩ => ⟨S256x256, .f32⟩
  | .hbm, ⟨9, _⟩ => ⟨S256x256, .bf16⟩
  | .hbm, ⟨10, _⟩ => ⟨S1x256, .f32⟩
  | .hbm, ⟨11, _⟩ => ⟨S1x256, .f32⟩
  | .hbm, ⟨12, _⟩ => ⟨S2x256x256, .f32⟩
  | .hbm, ⟨13, _⟩ => ⟨S1x256x256, .f32⟩
  | .hbm, ⟨14, _⟩ => ⟨S256x256, .f32⟩
  | .hbm, ⟨15, _⟩ => ⟨S1x256x256, .f32⟩
  | .hbm, ⟨16, _⟩ => ⟨S256x256, .f32⟩
  | .hbm, ⟨17, _⟩ => ⟨S256x256, .f32⟩
  | .local _ .vmem, ⟨0, _⟩ => ⟨S4096x256, .f32⟩
  | .local _ .vmem, ⟨1, _⟩ => ⟨S4096x256, .f32⟩
  | .local _ .vmem, ⟨2, _⟩ => ⟨S256x4096, .i32⟩
  | .local _ .vmem, ⟨3, _⟩ => ⟨S256x4096, .i32⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S1x256x256, .f32⟩
  | .local _ .vmem, ⟨9, _⟩ => ⟨S1x256x256, .f32⟩
  | .local _ .vmem, ⟨10, _⟩ => ⟨S256x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v48 : BitVec 1 := Scalar.cmpi .eq arg1 c24_i32
  let v49 : BitVec 32 := Scalar.extui v48
  let c0_i32_18 : BitVec 32 := 0#32
  let v50 : BitVec 1 := Scalar.cmpi .ne v49 c0_i32_18
  v50

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c48_i32 : BitVec 32 := 48#32
  let v2 : BitVec 32 := Scalar.minsi v1 c48_i32
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c48_i32 : BitVec 32 := 48#32
  let v2 : BitVec 32 := Scalar.minsi v1 c48_i32
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  transposes_S256x256_S256x256_1_0 : S256x256.Transposes [1, 0] S256x256
  bitsLt_bf16_f32 : FTy.bits .bf16 < FTy.bits .f32
  shapeCasts_S256_S1x256 : S256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4096x256_S4096x256_0_0 : ∀ a, (![0, 0] : Fin 2 → Nat) a + S4096x256.size a ≤ S4096x256.size a
  h_S4096x256 : 0 < S4096x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  iota_S4096x1_d0_w32 : S4096x1.Iotas .tc 32 [0]
  natLt_1_32 : 1 < 32
  broadcasts_S4096x1_S4096x256 : S4096x1.Broadcasts S4096x256
  iota_S256x4096_d1_w32 : S256x4096.Iotas .tc 32 [1]
  inb_S256x4096_S256x4096_0_0 : ∀ a, (![0, 0] : Fin 2 → Nat) a + S256x4096.size a ≤ S256x4096.size a
  h_S256x4096 : 0 < S256x4096.numel
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  slices_S2x256x256_S1x256x256_0_0_0 : S2x256x256.Slices ![0, 0, 0] S1x256x256
  slices_S2x256x256_S1x256x256_1_0_0 : S2x256x256.Slices ![1, 0, 0] S1x256x256
  dot_S4096x256_S256x256_S4096x256_1_0_0_1_n_n_wf : DotDims.WF S4096x256 S256x256 S4096x256 [1] [0] [0] [1] [] []
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x256.size a < S200000x256.size a
  hwx0_0 : ∀ i : grid0.Coords, EltTy.bits .f32 = 32 ∨ (Rect.unit (s := S200000x256) (fun a => cc0_transform_0 i a * S4096x256.size a) (fun a => (Pipeline.Clip.of (cc0_transform_0 i a) (S4096x256.size a) (S200000x256.size a)).extent (S4096x256.size a)) fun a => Pipeline.Clip.inb (Pipeline.Clip.ok_of (hstart0_0 i a))).WholeWords (EltTy.packing .f32)
  hwxs0_0 : ∀ i : grid0.Coords, EltTy.bits .f32 = 32 ∨ (Rect.unit (s := S4096x256) (fun _ => 0) (fun a => (Pipeline.Clip.of (cc0_transform_0 i a) (S4096x256.size a) (S200000x256.size a)).extent (S4096x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S256x4096.size a < S256x200000.size a
  hwx0_1 : ∀ i : grid0.Coords, EltTy.bits .i32 = 32 ∨ (Rect.unit (s := S256x200000) (fun a => cc0_transform_1 i a * S256x4096.size a) (fun a => (Pipeline.Clip.of (cc0_transform_1 i a) (S256x4096.size a) (S256x200000.size a)).extent (S256x4096.size a)) fun a => Pipeline.Clip.inb (Pipeline.Clip.ok_of (hstart0_1 i a))).WholeWords (EltTy.packing .i32)
  hwxs0_1 : ∀ i : grid0.Coords, EltTy.bits .i32 = 32 ∨ (Rect.unit (s := S256x4096) (fun _ => 0) (fun a => (Pipeline.Clip.of (cc0_transform_1 i a) (S256x4096.size a) (S256x200000.size a)).extent (S256x4096.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x256.size a ≤ S2x256x256.size a
  hwx0_6 : ∀ i : grid0.Coords, EltTy.bits .f32 = 32 ∨ (Rect.block (s := S2x256x256) S1x256x256.size (cc0_transform_6 i) (hinb0_6 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpecClip (Memref.whole main_arg0) S4096x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S256x4096.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S200000x256 : Shape := ⟨2, ![200000, 256]⟩
abbrev S256x200000 : Shape := ⟨2, ![256, 200000]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S256x200000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S200000x256, .f32⟩
  | .hbm, ⟨8, _⟩ => ⟨S1x256, .f32⟩
  | .hbm, ⟨9, _⟩ => ⟨S200000x256, .f32⟩
  | .hbm, ⟨10, _⟩ => ⟨S200000x256, .f32⟩
  | .hbm, ⟨11, _⟩ => ⟨S200000x256, .f32⟩
  | .hbm, ⟨12, _⟩ => ⟨S200000x256, .f32⟩
  | .hbm, ⟨13, _⟩ => ⟨S_, .f32⟩
  | .hbm, ⟨14, _⟩ => ⟨S200000x256, .f32⟩
  | .hbm, ⟨15, _⟩ => ⟨S200000x256, .f32⟩
  | .hbm, ⟨16, _⟩ => ⟨S_, .f32⟩
  | .hbm, ⟨17, _⟩ => ⟨S200000x256, .f32⟩
  | .hbm, ⟨18, _⟩ => ⟨S200000x256, .f32⟩
  | .hbm, ⟨19, _⟩ => ⟨S256x256, .f32⟩
  | .hbm, ⟨20, _⟩ => ⟨S200000x256, .f32⟩
  | .hbm, ⟨21, _⟩ => ⟨S1x256, .f32⟩
  | .hbm, ⟨22, _⟩ => ⟨S200000x256, .f32⟩
  | .hbm, ⟨23, _⟩ => ⟨S200000x256, .f32⟩
  | .hbm, ⟨24, _⟩ => ⟨S256x200000, .f32⟩
  | .hbm, ⟨25, _⟩ => ⟨S200000x256, .f32⟩
  | .hbm, ⟨26, _⟩ => ⟨S256x256, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  dot_S200000x256_S256x256_S200000x256_1_0_0_1_n_n_wf : DotDims.WF S200000x256 S256x256 S200000x256 [1] [0] [0] [1] [] []
  dot_S256x200000_S200000x256_S256x256_1_0_0_1_n_n_wf : DotDims.WF S256x200000 S200000x256 S256x256 [1] [0] [0] [1] [] []

variable [Facts₀]

def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def dot_S256x200000_S200000x256_S256x256_1_0_0_1_n_n : DotDims S256x200000 S200000x256 S256x256 where
  lhsContracting := [1]
  rhsContracting := [0]
  lhsNonContracting := [0]
  rhsNonContracting := [1]
  lhsBatch := []
  rhsBatch := []
  wf := dot_S256x200000_S200000x256_S256x256_1_0_0_1_n_n_wf

class Facts : Prop extends Facts₀ where

variable [Facts]
-- ==== Proof.BitsBranches.lean ====
/-
  The two branches of the kernel body, decided over the grid. The grid is (core, tile) = (2, 25), fifty points in
  row-major order, so point t is core t / 25 and tile t % 25. The body resets its accumulator when the tile number
  is 0 and copies the accumulator to the result's block when the tile number is 24; no point does both.
-/
import proofs.«114824_j76501957477036_2_alg».proof.Proof.Gen.Kernel.Skeleton
import proofs.«114824_j76501957477036_2_alg».proof.Proof.Gen.Kernel.Launch
import proofs.«114824_j76501957477036_2_alg».proof.Proof.Gen.Kernel.Points

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

/-- The body's first branch: the tile coordinate is 0 (the accumulator is reset). -/
abbrev firstTile (i : grid0.Coords) : Prop :=
  Scalar.cmpi .ne (Scalar.extui (Scalar.cmpi .eq (BitVec.ofNat 32 (i 1).val) 0#32) : BitVec 32) 0#32 = 1#1

/-- The body's second branch: the tile coordinate is 24 (the accumulator is copied to the result's block). -/
abbrev lastTile (i : grid0.Coords) : Prop := k0_cond2 i = 1#1

/-- The accumulator is reset exactly at the points 0 and 25: the first tile of each core. -/
theorem firstTile_iff : ∀ t : Fin cfg0.N, firstTile (grid0.coords t) ↔ t.val % 25 = 0 :=
  (by decide +kernel : ∀ t : Fin grid0.N, firstTile (grid0.coords t) ↔ t.val % 25 = 0)

/-- The result's block is stored exactly at the points 24 and 49: the last tile of each core. -/
theorem lastTile_iff : ∀ t : Fin cfg0.N, lastTile (grid0.coords t) ↔ t.val % 25 = 24 :=
  (by decide +kernel : ∀ t : Fin grid0.N, lastTile (grid0.coords t) ↔ t.val % 25 = 24)

end Cert.Kernel.Hand

end
-- ==== Proof.BitsSafe.lean ====
/-
  The kernel body is safe on any contents. Called on eight whole buffers — the two tiles (rows of the node features,
  columns of the owner masks), the two weight matrices and two bias rows, the result's block and the accumulator —
  each holding anything, the body runs to its end without a fault and hands the eight buffers back, each again
  holding something. Every load and store of the body is of a whole buffer, and the only control is the two branches
  on the tile number, so there is one run per way those branches go: the first tile (the accumulator is reset first),
  a middle tile, and the last tile (the accumulator is also copied out). Nothing is said here of what the buffers
  hold afterwards; that the arguments' arrays are untouched follows from the body never being handed them.
-/
import proofs.«114824_j76501957477036_2_alg».proof.Proof.BitsBranches
import proofs.«114824_j76501957477036_2_alg».proof.Proof.Gen.Kernel.Frame
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 2000000 in
/-- A middle tile: neither branch is taken; the accumulator is read, added to and stored. -/
theorem safe_middle (c : Dev nD) (i : grid0.Coords) (arg2 : Memref sig .tc .vmem S4096x256 .f32) (harg2 : arg2.IsWhole) (arg3 : Memref sig .tc .vmem S256x4096 .i32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256x256 .f32) (harg8 : arg8.IsWhole) (arg9 : Memref sig .tc .vmem S256x256 .f32) (harg9 : arg9.IsWhole) (h1 : ¬ firstTile i) (h2 : ¬ lastTile i) :
    ∀ (E : Set ℕ) (K : PUnit → sProp 𝕄),
      iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
          ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
        ⊢ wp frame (wpE (defs₀ (F := F)) Variants.none c none) E (cc0__agg_kernel i arg2 harg2 arg3 harg3 arg4 harg4 arg5 harg5 arg6 harg6 arg7 harg7 arg8 harg8 arg9 harg9) K := by
  intro E K
  simp only [cc0__agg_kernel_eq_skeleton]; unfold cc0__agg_kernel_skel
  simp only [k0_part1_eq_skeleton]
  unfold owns
  iintro ⟨⟨%darg2, %farg2, -, Harg2⟩, ⟨%darg3, %farg3, -, Harg3⟩, ⟨%darg4, %farg4, -, Harg4⟩, ⟨%darg5, %farg5, -, Harg5⟩, ⟨%darg6, %farg6, -, Harg6⟩, ⟨%darg7, %farg7, -, Harg7⟩, ⟨%darg8, %farg8, -, Harg8⟩, ⟨%darg9, %farg9, -, Harg9⟩, Hk⟩
  sl_exec (disch := first | exact h1 | exact h2)
  sl_step
  iapply Hk
  isplitl [Harg2]
  · iexists _, _; isplitr; swap; · iexact Harg2
    ipureintro; rfl
  isplitl [Harg3]
  · iexists _, _; isplitr; swap; · iexact Harg3
    ipureintro; rfl
  isplitl [Harg4]
  · iexists _, _; isplitr; swap; · iexact Harg4
    ipureintro; rfl
  isplitl [Harg5]
  · iexists _, _; isplitr; swap; · iexact Harg5
    ipureintro; rfl
  isplitl [Harg6]
  · iexists _, _; isplitr; swap; · iexact Harg6
    ipureintro; rfl
  isplitl [Harg7]
  · iexists _, _; isplitr; swap; · iexact Harg7
    ipureintro; rfl
  isplitl [Harg8]
  · iexists _, _; isplitr; swap; · iexact Harg8
    ipureintro; rfl
  iexists _, _; isplitr; swap; · iexact Harg9
  ipureintro; rfl

set_option maxHeartbeats 2000000 in
/-- The first tile of a core: the accumulator is first overwritten with zeros, then read, added to and stored. -/
theorem safe_first (c : Dev nD) (i : grid0.Coords) (arg2 : Memref sig .tc .vmem S4096x256 .f32) (harg2 : arg2.IsWhole) (arg3 : Memref sig .tc .vmem S256x4096 .i32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256x256 .f32) (harg8 : arg8.IsWhole) (arg9 : Memref sig .tc .vmem S256x256 .f32) (harg9 : arg9.IsWhole) (h1 : firstTile i) (h2 : ¬ lastTile i) :
    ∀ (E : Set ℕ) (K : PUnit → sProp 𝕄),
      iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
          ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
        ⊢ wp frame (wpE (defs₀ (F := F)) Variants.none c none) E (cc0__agg_kernel i arg2 harg2 arg3 harg3 arg4 harg4 arg5 harg5 arg6 harg6 arg7 harg7 arg8 harg8 arg9 harg9) K := by
  intro E K
  simp only [cc0__agg_kernel_eq_skeleton]; unfold cc0__agg_kernel_skel
  simp only [k0_part1_eq_skeleton]
  unfold owns
  iintro ⟨⟨%darg2, %farg2, -, Harg2⟩, ⟨%darg3, %farg3, -, Harg3⟩, ⟨%darg4, %farg4, -, Harg4⟩, ⟨%darg5, %farg5, -, Harg5⟩, ⟨%darg6, %farg6, -, Harg6⟩, ⟨%darg7, %farg7, -, Harg7⟩, ⟨%darg8, %farg8, -, Harg8⟩, ⟨%darg9, %farg9, -, Harg9⟩, Hk⟩
  sl_exec (disch := first | exact h1 | exact h2)
  sl_step
  iapply Hk
  isplitl [Harg2]
  · iexists _, _; isplitr; swap; · iexact Harg2
    ipureintro; rfl
  isplitl [Harg3]
  · iexists _, _; isplitr; swap; · iexact Harg3
    ipureintro; rfl
  isplitl [Harg4]
  · iexists _, _; isplitr; swap; · iexact Harg4
    ipureintro; rfl
  isplitl [Harg5]
  · iexists _, _; isplitr; swap; · iexact Harg5
    ipureintro; rfl
  isplitl [Harg6]
  · iexists _, _; isplitr; swap; · iexact Harg6
    ipureintro; rfl
  isplitl [Harg7]
  · iexists _, _; isplitr; swap; · iexact Harg7
    ipureintro; rfl
  isplitl [Harg8]
  · iexists _, _; isplitr; swap; · iexact Harg8
    ipureintro; rfl
  iexists _, _; isplitr; swap; · iexact Harg9
  ipureintro; rfl

set_option maxHeartbeats 2000000 in
/-- The last tile of a core: after the accumulator is updated it is read once more and stored, as a [1,256,256] block, into the result's buffer. -/
theorem safe_last (c : Dev nD) (i : grid0.Coords) (arg2 : Memref sig .tc .vmem S4096x256 .f32) (harg2 : arg2.IsWhole) (arg3 : Memref sig .tc .vmem S256x4096 .i32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256x256 .f32) (harg8 : arg8.IsWhole) (arg9 : Memref sig .tc .vmem S256x256 .f32) (harg9 : arg9.IsWhole) (h1 : ¬ firstTile i) (h2 : lastTile i) :
    ∀ (E : Set ℕ) (K : PUnit → sProp 𝕄),
      iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
          ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
        ⊢ wp frame (wpE (defs₀ (F := F)) Variants.none c none) E (cc0__agg_kernel i arg2 harg2 arg3 harg3 arg4 harg4 arg5 harg5 arg6 harg6 arg7 harg7 arg8 harg8 arg9 harg9) K := by
  intro E K
  simp only [cc0__agg_kernel_eq_skeleton]; unfold cc0__agg_kernel_skel
  simp only [k0_part1_eq_skeleton]
  unfold owns
  iintro ⟨⟨%darg2, %farg2, -, Harg2⟩, ⟨%darg3, %farg3, -, Harg3⟩, ⟨%darg4, %farg4, -, Harg4⟩, ⟨%darg5, %farg5, -, Harg5⟩, ⟨%darg6, %farg6, -, Harg6⟩, ⟨%darg7, %farg7, -, Harg7⟩, ⟨%darg8, %farg8, -, Harg8⟩, ⟨%darg9, %farg9, -, Harg9⟩, Hk⟩
  sl_exec (disch := first | exact h1 | exact h2)
  sl_step
  iapply Hk
  isplitl [Harg2]
  · iexists _, _; isplitr; swap; · iexact Harg2
    ipureintro; rfl
  isplitl [Harg3]
  · iexists _, _; isplitr; swap; · iexact Harg3
    ipureintro; rfl
  isplitl [Harg4]
  · iexists _, _; isplitr; swap; · iexact Harg4
    ipureintro; rfl
  isplitl [Harg5]
  · iexists _, _; isplitr; swap; · iexact Harg5
    ipureintro; rfl
  isplitl [Harg6]
  · iexists _, _; isplitr; swap; · iexact Harg6
    ipureintro; rfl
  isplitl [Harg7]
  · iexists _, _; isplitr; swap; · iexact Harg7
    ipureintro; rfl
  isplitl [Harg8]
  · iexists _, _; isplitr; swap; · iexact Harg8
    ipureintro; rfl
  iexists _, _; isplitr; swap; · iexact Harg9
  ipureintro; rfl

end Cert.Kernel.Hand

end
-- ==== Proof.BitsFrame.lean ====
/-
  The frame: the program runs to its end without a fault and leaves its six argument arrays as it found them.
  The pipeline hands the body, at each of the fifty grid points, one staging buffer per window and the accumulator;
  the body is safe on any contents of these (the three runs by tile number), so nothing need be said of what any
  staging buffer holds: every window is forgotten, and the region's invariant is that the accumulator holds
  something. The two arrays the pipeline stages tiles of (the node features and the owner masks) are inputs of the
  region, which writes back only the result's blocks, so they end as they began; the weights and biases are read only
  by the host lines before the region; and the host lines after the region (two slices of the result, two reshapes
  and their sum) write five buffers of their own and no argument.
-/
import proofs.«114824_j76501957477036_2_alg».proof.Proof.BitsSafe
import Idealize.ShloMosaic.Lib.Pipeline.FrameBody
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window's staging contents are left unnamed. -/
def forgetAll : Fin 7 → Bool := fun _ => true

/-- The proof data of the frame: the arrays as the region finds them; nothing named of any staging buffer; the
    invariant that the accumulator (the one scratch buffer) holds something and the generator some state. -/
def safeDats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem safeA_eq (c : Dev nD) (w : Fin cfg0.W) : (safeDats m 0 c).A w = V m c (Pipeline.arrRef spec0 w) := by
  dsimp only [safeDats]

/-- The region's invariant says that the accumulator, as a whole memref, holds something. -/
theorem accHeld_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

set_option maxHeartbeats 2000000 in
/-- The body at any point: whichever of the three runs the point's tile number selects applies, the seven staging
    buffers and the accumulator handed over and taken back at some contents. -/
theorem safe_body (c : Dev nD) (t : Fin cfg0.N) :
    iprop((safeDats m 0 c).Φ t.castSucc ∗ (safeDats m 0 c).owesAt () t.castSucc
      ∗ (∃ X, owns (c : Thread nD τ) (st0_0 t) fullShare X)
      ∗ (∃ X, owns (c : Thread nD τ) (st0_1 t) fullShare X)
      ∗ (∃ X, owns (c : Thread nD τ) (st0_2 t) fullShare X)
      ∗ (∃ X, owns (c : Thread nD τ) (st0_3 t) fullShare X)
      ∗ (∃ X, owns (c : Thread nD τ) (st0_4 t) fullShare X)
      ∗ (∃ X, owns (c : Thread nD τ) (st0_5 t) fullShare X)
      ∗ (∃ X, owns (c : Thread nD τ) (st0_6 t) fullShare X))
    ⊢ wp frame (wpE (defs₀ (F := F)) Variants.none c none) Set.univ (bodyAt0 t) (fun _ =>
      iprop((safeDats m 0 c).Φ t.succ ∗ (safeDats m 0 c).owesAt () t.succ
      ∗ (∃ X, owns (c : Thread nD τ) (st0_0 t) fullShare X)
      ∗ (∃ X, owns (c : Thread nD τ) (st0_1 t) fullShare X)
      ∗ (∃ X, owns (c : Thread nD τ) (st0_2 t) fullShare X)
      ∗ (∃ X, owns (c : Thread nD τ) (st0_3 t) fullShare X)
      ∗ (∃ X, owns (c : Thread nD τ) (st0_4 t) fullShare X)
      ∗ (∃ X, owns (c : Thread nD τ) (st0_5 t) fullShare X)
      ∗ (∃ X, owns (c : Thread nD τ) (st0_6 t) fullShare X))) := by
  unfold bodyAt0
  rw [show (safeDats m 0 c).Φ t.succ = Pipeline.ΦA spec0 c from rfl,
    show (safeDats m 0 c).Φ t.castSucc = Pipeline.ΦA spec0 c from rfl,
    show (safeDats m 0 c).owesAt () t.succ = (safeDats m 0 c).owesAt () t.castSucc from rfl, accHeld_eq]
  iintro ⟨⟨HS, Hg⟩, Ho, H0, H1, H2, H3, H4, H5, H6⟩
  by_cases h1 : firstTile (grid0.coords t)
  · have h2 : ¬ lastTile (grid0.coords t) := fun h => by
      have a := (firstTile_iff t).mp h1; have b := (lastTile_iff t).mp h; omega
    iapply (safe_first c (grid0.coords t) _ _ _ _ _ _ _ _ _ _ _ _ _ _ _ _ h1 h2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · by_cases h2 : lastTile (grid0.coords t)
    ·
      iapply (safe_last c (grid0.coords t) _ _ _ _ _ _ _ _ _ _ _ _ _ _ _ _ h1 h2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    ·
      iapply (safe_middle c (grid0.coords t) _ _ _ _ _ _ _ _ _ _ _ _ _ _ _ _ h1 h2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body obligation with every window forgotten. -/
theorem safe_obligation (c : Dev nD) :
    BodyObligation (safeDats (F := F) m 0 c) (defs₀ (F := F)) Variants.none () Set.univ forgetAll := fun t => by
  rw [bigSep_W0, bigSep_W0]
  exact safe_body m c t

/-- The buffers the host lines after the region write: the two slices of the result, their reshapes, and the sum. -/
def tailWrites : Finset (Ref sig .tc) := {main_v7, main_v8, main_v9, main_v10, main_v11}

theorem tail_writes : ∀ ops ∈ ([hostOps1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  subst hops
  simp only [hostOps1, List.mem_cons, List.mem_nil_iff, or_false] at hop
  rcases hop with rfl | rfl | rfl | rfl | rfl
  all_goals
    simp only [StableHlo.unary_writes, StableHlo.reshape_writes, StableHlo.binary_writes, Finset.mem_singleton] at hb
    first
    | (have e : b = main_v7 := by by_contra h; exact StableHlo.devRef_ne_of_ne h hb
       subst e; decide)
    | (have e : b = main_v8 := by by_contra h; exact StableHlo.devRef_ne_of_ne h hb
       subst e; decide)
    | (have e : b = main_v9 := by by_contra h; exact StableHlo.devRef_ne_of_ne h hb
       subst e; decide)
    | (have e : b = main_v10 := by by_contra h; exact StableHlo.devRef_ne_of_ne h hb
       subst e; decide)
    | (have e : b = main_v11 := by by_contra h; exact StableHlo.devRef_ne_of_ne h hb
       subst e; decide)

set_option backward.isDefEq.respectTransparency.types false in
/-- Every weakly fair execution of @main terminates without a fault; the region's two input arrays end at their
    entry contents, and every buffer that is neither an array of the region nor written by the later host lines
    ends at what the earlier host lines left in it. -/
theorem safe_run : θ_run defs (onTc (τ := τ) (main (F := F))) (s₀ m ρ)
    (Pipeline.RDat.FramePostR (cfgs 0) (fun c => (safeDats m 0 c).toRForget forgetAll) tailWrites
      (fun c b => V0 m c (Proc.devRef .tc b))) :=
  Pipeline.RDat.θ_run_frame_around_T cfgs (0 : Fin 1) launch0 defs₀ Variants.none
    (fun c => (safeDats m 0 c).toRForget forgetAll) tailWrites m ρ main
    (hbody := fun c => (safe_obligation m c).toRForget)
    (hshare := fun c => ((safeDats m 0 c).toRForget forgetAll).share_full fun _ => rfl)
    (howed := fun _ _ => rfl) (V₀ := V0 m) (opss := [hostOps1]) (hsub := sfx_sub) (hfresh := sfx_fresh)
    (hkeep := sfx_keeps) (hT := tail_writes) (hmain := hmain m Variants.none) (hA := safeA_eq m)
    (hΦ := fun _ _ => rfl)

/-- The frame claim's post, at any instance of the float operations. -/
theorem frame_holds : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      (Eq.mp (congrFun (((safeDats m 0 c).toRForget forgetAll).ArrAt_in 0 rfl _) _) ((h c).1 0)).trans
        ((safeA_eq m c 0).trans (V_main_arg0 m c)),
      (Eq.mp (congrFun (((safeDats m 0 c).toRForget forgetAll).ArrAt_in 1 rfl _) _) ((h c).1 1)).trans
        ((safeA_eq m c 1).trans (V_main_arg1 m c)),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c)⟩)
    (safe_run m ρ)

end Cert.Kernel.Hand

end
-- ==== Proof.IdealBranches.lean ====
/-
  The two branches of the kernel body, decided over the grid. The grid is (core, tile) = (2, 25), fifty points in
  row-major order, so point t is core t / 25 and tile t % 25. The body resets its accumulator when the tile number
  is 0 and copies the accumulator to the result's block when the tile number is 24; no point does both.
-/
import proofs.«114824_j76501957477036_2_alg».proof.Proof.Gen.KernelIdeal.Skeleton
import proofs.«114824_j76501957477036_2_alg».proof.Proof.Gen.KernelIdeal.Launch
import proofs.«114824_j76501957477036_2_alg».proof.Proof.Gen.KernelIdeal.Points

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

/-- The body's first branch: the tile coordinate is 0 (the accumulator is reset). -/
abbrev firstTile (i : grid0.Coords) : Prop :=
  Scalar.cmpi .ne (Scalar.extui (Scalar.cmpi .eq (BitVec.ofNat 32 (i 1).val) 0#32) : BitVec 32) 0#32 = 1#1

/-- The body's second branch: the tile coordinate is 24 (the accumulator is copied to the result's block). -/
abbrev lastTile (i : grid0.Coords) : Prop := k0_cond2 i = 1#1

/-- The accumulator is reset exactly at the points 0 and 25: the first tile of each core. -/
theorem firstTile_iff : ∀ t : Fin cfg0.N, firstTile (grid0.coords t) ↔ t.val % 25 = 0 :=
  (by decide +kernel : ∀ t : Fin grid0.N, firstTile (grid0.coords t) ↔ t.val % 25 = 0)

/-- The result's block is stored exactly at the points 24 and 49: the last tile of each core. -/
theorem lastTile_iff : ∀ t : Fin cfg0.N, lastTile (grid0.coords t) ↔ t.val % 25 = 24 :=
  (by decide +kernel : ∀ t : Fin grid0.N, lastTile (grid0.coords t) ↔ t.val % 25 = 24)

end Cert.KernelIdeal.Hand

end
-- ==== Proof.IdealSafe.lean ====
/-
  The kernel body is safe on any contents. Called on eight whole buffers — the two tiles (rows of the node features,
  columns of the owner masks), the two weight matrices and two bias rows, the result's block and the accumulator —
  each holding anything, the body runs to its end without a fault and hands the eight buffers back, each again
  holding something. Every load and store of the body is of a whole buffer, and the only control is the two branches
  on the tile number, so there is one run per way those branches go: the first tile (the accumulator is reset first),
  a middle tile, and the last tile (the accumulator is also copied out). Nothing is said here of what the buffers
  hold afterwards; that the arguments' arrays are untouched follows from the body never being handed them.
-/
import proofs.«114824_j76501957477036_2_alg».proof.Proof.IdealBranches
import proofs.«114824_j76501957477036_2_alg».proof.Proof.Gen.KernelIdeal.Frame
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 2000000 in
/-- A middle tile: neither branch is taken; the accumulator is read, added to and stored. -/
theorem safe_middle (c : Dev nD) (i : grid0.Coords) (arg2 : Memref sig .tc .vmem S4096x256 .f32) (harg2 : arg2.IsWhole) (arg3 : Memref sig .tc .vmem S256x4096 .i32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256x256 .f32) (harg8 : arg8.IsWhole) (arg9 : Memref sig .tc .vmem S256x256 .f32) (harg9 : arg9.IsWhole) (h1 : ¬ firstTile i) (h2 : ¬ lastTile i) :
    ∀ (E : Set ℕ) (K : PUnit → sProp 𝕄),
      iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
          ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
        ⊢ wp frame (wpE (defs₀ (F := F)) Variants.none c none) E (cc0__agg_kernel i arg2 harg2 arg3 harg3 arg4 harg4 arg5 harg5 arg6 harg6 arg7 harg7 arg8 harg8 arg9 harg9) K := by
  intro E K
  simp only [cc0__agg_kernel_eq_skeleton]; unfold cc0__agg_kernel_skel
  simp only [k0_part1_eq_skeleton]
  unfold owns
  iintro ⟨⟨%darg2, %farg2, -, Harg2⟩, ⟨%darg3, %farg3, -, Harg3⟩, ⟨%darg4, %farg4, -, Harg4⟩, ⟨%darg5, %farg5, -, Harg5⟩, ⟨%darg6, %farg6, -, Harg6⟩, ⟨%darg7, %farg7, -, Harg7⟩, ⟨%darg8, %farg8, -, Harg8⟩, ⟨%darg9, %farg9, -, Harg9⟩, Hk⟩
  sl_exec (disch := first | exact h1 | exact h2)
  sl_step
  iapply Hk
  isplitl [Harg2]
  · iexists _, _; isplitr; swap; · iexact Harg2
    ipureintro; rfl
  isplitl [Harg3]
  · iexists _, _; isplitr; swap; · iexact Harg3
    ipureintro; rfl
  isplitl [Harg4]
  · iexists _, _; isplitr; swap; · iexact Harg4
    ipureintro; rfl
  isplitl [Harg5]
  · iexists _, _; isplitr; swap; · iexact Harg5
    ipureintro; rfl
  isplitl [Harg6]
  · iexists _, _; isplitr; swap; · iexact Harg6
    ipureintro; rfl
  isplitl [Harg7]
  · iexists _, _; isplitr; swap; · iexact Harg7
    ipureintro; rfl
  isplitl [Harg8]
  · iexists _, _; isplitr; swap; · iexact Harg8
    ipureintro; rfl
  iexists _, _; isplitr; swap; · iexact Harg9
  ipureintro; rfl

set_option maxHeartbeats 2000000 in
/-- The first tile of a core: the accumulator is first overwritten with zeros, then read, added to and stored. -/
theorem safe_first (c : Dev nD) (i : grid0.Coords) (arg2 : Memref sig .tc .vmem S4096x256 .f32) (harg2 : arg2.IsWhole) (arg3 : Memref sig .tc .vmem S256x4096 .i32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256x256 .f32) (harg8 : arg8.IsWhole) (arg9 : Memref sig .tc .vmem S256x256 .f32) (harg9 : arg9.IsWhole) (h1 : firstTile i) (h2 : ¬ lastTile i) :
    ∀ (E : Set ℕ) (K : PUnit → sProp 𝕄),
      iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
          ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
        ⊢ wp frame (wpE (defs₀ (F := F)) Variants.none c none) E (cc0__agg_kernel i arg2 harg2 arg3 harg3 arg4 harg4 arg5 harg5 arg6 harg6 arg7 harg7 arg8 harg8 arg9 harg9) K := by
  intro E K
  simp only [cc0__agg_kernel_eq_skeleton]; unfold cc0__agg_kernel_skel
  simp only [k0_part1_eq_skeleton]
  unfold owns
  iintro ⟨⟨%darg2, %farg2, -, Harg2⟩, ⟨%darg3, %farg3, -, Harg3⟩, ⟨%darg4, %farg4, -, Harg4⟩, ⟨%darg5, %farg5, -, Harg5⟩, ⟨%darg6, %farg6, -, Harg6⟩, ⟨%darg7, %farg7, -, Harg7⟩, ⟨%darg8, %farg8, -, Harg8⟩, ⟨%darg9, %farg9, -, Harg9⟩, Hk⟩
  sl_exec (disch := first | exact h1 | exact h2)
  sl_step
  iapply Hk
  isplitl [Harg2]
  · iexists _, _; isplitr; swap; · iexact Harg2
    ipureintro; rfl
  isplitl [Harg3]
  · iexists _, _; isplitr; swap; · iexact Harg3
    ipureintro; rfl
  isplitl [Harg4]
  · iexists _, _; isplitr; swap; · iexact Harg4
    ipureintro; rfl
  isplitl [Harg5]
  · iexists _, _; isplitr; swap; · iexact Harg5
    ipureintro; rfl
  isplitl [Harg6]
  · iexists _, _; isplitr; swap; · iexact Harg6
    ipureintro; rfl
  isplitl [Harg7]
  · iexists _, _; isplitr; swap; · iexact Harg7
    ipureintro; rfl
  isplitl [Harg8]
  · iexists _, _; isplitr; swap; · iexact Harg8
    ipureintro; rfl
  iexists _, _; isplitr; swap; · iexact Harg9
  ipureintro; rfl

set_option maxHeartbeats 2000000 in
/-- The last tile of a core: after the accumulator is updated it is read once more and stored, as a [1,256,256] block, into the result's buffer. -/
theorem safe_last (c : Dev nD) (i : grid0.Coords) (arg2 : Memref sig .tc .vmem S4096x256 .f32) (harg2 : arg2.IsWhole) (arg3 : Memref sig .tc .vmem S256x4096 .i32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256x256 .f32) (harg8 : arg8.IsWhole) (arg9 : Memref sig .tc .vmem S256x256 .f32) (harg9 : arg9.IsWhole) (h1 : ¬ firstTile i) (h2 : lastTile i) :
    ∀ (E : Set ℕ) (K : PUnit → sProp 𝕄),
      iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
          ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
        ⊢ wp frame (wpE (defs₀ (F := F)) Variants.none c none) E (cc0__agg_kernel i arg2 harg2 arg3 harg3 arg4 harg4 arg5 harg5 arg6 harg6 arg7 harg7 arg8 harg8 arg9 harg9) K := by
  intro E K
  simp only [cc0__agg_kernel_eq_skeleton]; unfold cc0__agg_kernel_skel
  simp only [k0_part1_eq_skeleton]
  unfold owns
  iintro ⟨⟨%darg2, %farg2, -, Harg2⟩, ⟨%darg3, %farg3, -, Harg3⟩, ⟨%darg4, %farg4, -, Harg4⟩, ⟨%darg5, %farg5, -, Harg5⟩, ⟨%darg6, %farg6, -, Harg6⟩, ⟨%darg7, %farg7, -, Harg7⟩, ⟨%darg8, %farg8, -, Harg8⟩, ⟨%darg9, %farg9, -, Harg9⟩, Hk⟩
  sl_exec (disch := first | exact h1 | exact h2)
  sl_step
  iapply Hk
  isplitl [Harg2]
  · iexists _, _; isplitr; swap; · iexact Harg2
    ipureintro; rfl
  isplitl [Harg3]
  · iexists _, _; isplitr; swap; · iexact Harg3
    ipureintro; rfl
  isplitl [Harg4]
  · iexists _, _; isplitr; swap; · iexact Harg4
    ipureintro; rfl
  isplitl [Harg5]
  · iexists _, _; isplitr; swap; · iexact Harg5
    ipureintro; rfl
  isplitl [Harg6]
  · iexists _, _; isplitr; swap; · iexact Harg6
    ipureintro; rfl
  isplitl [Harg7]
  · iexists _, _; isplitr; swap; · iexact Harg7
    ipureintro; rfl
  isplitl [Harg8]
  · iexists _, _; isplitr; swap; · iexact Harg8
    ipureintro; rfl
  iexists _, _; isplitr; swap; · iexact Harg9
  ipureintro; rfl

end Cert.KernelIdeal.Hand

end
-- ==== Proof.IdealFrame.lean ====
/-
  The frame: the program runs to its end without a fault and leaves its six argument arrays as it found them.
  The pipeline hands the body, at each of the fifty grid points, one staging buffer per window and the accumulator;
  the body is safe on any contents of these (the three runs by tile number), so nothing need be said of what any
  staging buffer holds: every window is forgotten, and the region's invariant is that the accumulator holds
  something. The two arrays the pipeline stages tiles of (the node features and the owner masks) are inputs of the
  region, which writes back only the result's blocks, so they end as they began; the weights and biases are read only
  by the host lines before the region; and the host lines after the region (two slices of the result, two reshapes
  and their sum) write five buffers of their own and no argument.
-/
import proofs.«114824_j76501957477036_2_alg».proof.Proof.IdealSafe
import Idealize.ShloMosaic.Lib.Pipeline.FrameBody
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window's staging contents are left unnamed. -/
def forgetAll : Fin 7 → Bool := fun _ => true

/-- The proof data of the frame: the arrays as the region finds them; nothing named of any staging buffer; the
    invariant that the accumulator (the one scratch buffer) holds something and the generator some state. -/
def safeDats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem safeA_eq (c : Dev nD) (w : Fin cfg0.W) : (safeDats m 0 c).A w = V m c (Pipeline.arrRef spec0 w) := by
  dsimp only [safeDats]

/-- The region's invariant says that the accumulator, as a whole memref, holds something. -/
theorem accHeld_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

set_option maxHeartbeats 2000000 in
/-- The body at any point: whichever of the three runs the point's tile number selects applies, the seven staging
    buffers and the accumulator handed over and taken back at some contents. -/
theorem safe_body (c : Dev nD) (t : Fin cfg0.N) :
    iprop((safeDats m 0 c).Φ t.castSucc ∗ (safeDats m 0 c).owesAt () t.castSucc
      ∗ (∃ X, owns (c : Thread nD τ) (st0_0 t) fullShare X)
      ∗ (∃ X, owns (c : Thread nD τ) (st0_1 t) fullShare X)
      ∗ (∃ X, owns (c : Thread nD τ) (st0_2 t) fullShare X)
      ∗ (∃ X, owns (c : Thread nD τ) (st0_3 t) fullShare X)
      ∗ (∃ X, owns (c : Thread nD τ) (st0_4 t) fullShare X)
      ∗ (∃ X, owns (c : Thread nD τ) (st0_5 t) fullShare X)
      ∗ (∃ X, owns (c : Thread nD τ) (st0_6 t) fullShare X))
    ⊢ wp frame (wpE (defs₀ (F := F)) Variants.none c none) Set.univ (bodyAt0 t) (fun _ =>
      iprop((safeDats m 0 c).Φ t.succ ∗ (safeDats m 0 c).owesAt () t.succ
      ∗ (∃ X, owns (c : Thread nD τ) (st0_0 t) fullShare X)
      ∗ (∃ X, owns (c : Thread nD τ) (st0_1 t) fullShare X)
      ∗ (∃ X, owns (c : Thread nD τ) (st0_2 t) fullShare X)
      ∗ (∃ X, owns (c : Thread nD τ) (st0_3 t) fullShare X)
      ∗ (∃ X, owns (c : Thread nD τ) (st0_4 t) fullShare X)
      ∗ (∃ X, owns (c : Thread nD τ) (st0_5 t) fullShare X)
      ∗ (∃ X, owns (c : Thread nD τ) (st0_6 t) fullShare X))) := by
  unfold bodyAt0
  rw [show (safeDats m 0 c).Φ t.succ = Pipeline.ΦA spec0 c from rfl,
    show (safeDats m 0 c).Φ t.castSucc = Pipeline.ΦA spec0 c from rfl,
    show (safeDats m 0 c).owesAt () t.succ = (safeDats m 0 c).owesAt () t.castSucc from rfl, accHeld_eq]
  iintro ⟨⟨HS, Hg⟩, Ho, H0, H1, H2, H3, H4, H5, H6⟩
  by_cases h1 : firstTile (grid0.coords t)
  · have h2 : ¬ lastTile (grid0.coords t) := fun h => by
      have a := (firstTile_iff t).mp h1; have b := (lastTile_iff t).mp h; omega
    iapply (safe_first c (grid0.coords t) _ _ _ _ _ _ _ _ _ _ _ _ _ _ _ _ h1 h2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · by_cases h2 : lastTile (grid0.coords t)
    ·
      iapply (safe_last c (grid0.coords t) _ _ _ _ _ _ _ _ _ _ _ _ _ _ _ _ h1 h2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    ·
      iapply (safe_middle c (grid0.coords t) _ _ _ _ _ _ _ _ _ _ _ _ _ _ _ _ h1 h2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body obligation with every window forgotten. -/
theorem safe_obligation (c : Dev nD) :
    BodyObligation (safeDats (F := F) m 0 c) (defs₀ (F := F)) Variants.none () Set.univ forgetAll := fun t => by
  rw [bigSep_W0, bigSep_W0]
  exact safe_body m c t

/-- The buffers the host lines after the region write: the two slices of the result, their reshapes, and the sum. -/
def tailWrites : Finset (Ref sig .tc) := {main_v7, main_v8, main_v9, main_v10, main_v11}

theorem tail_writes : ∀ ops ∈ ([hostOps1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  subst hops
  simp only [hostOps1, List.mem_cons, List.mem_nil_iff, or_false] at hop
  rcases hop with rfl | rfl | rfl | rfl | rfl
  all_goals
    simp only [StableHlo.unary_writes, StableHlo.reshape_writes, StableHlo.binary_writes, Finset.mem_singleton] at hb
    first
    | (have e : b = main_v7 := by by_contra h; exact StableHlo.devRef_ne_of_ne h hb
       subst e; decide)
    | (have e : b = main_v8 := by by_contra h; exact StableHlo.devRef_ne_of_ne h hb
       subst e; decide)
    | (have e : b = main_v9 := by by_contra h; exact StableHlo.devRef_ne_of_ne h hb
       subst e; decide)
    | (have e : b = main_v10 := by by_contra h; exact StableHlo.devRef_ne_of_ne h hb
       subst e; decide)
    | (have e : b = main_v11 := by by_contra h; exact StableHlo.devRef_ne_of_ne h hb
       subst e; decide)

set_option backward.isDefEq.respectTransparency.types false in
/-- Every weakly fair execution of @main terminates without a fault; the region's two input arrays end at their
    entry contents, and every buffer that is neither an array of the region nor written by the later host lines
    ends at what the earlier host lines left in it. -/
theorem safe_run : θ_run defs (onTc (τ := τ) (main (F := F))) (s₀ m ρ)
    (Pipeline.RDat.FramePostR (cfgs 0) (fun c => (safeDats m 0 c).toRForget forgetAll) tailWrites
      (fun c b => V0 m c (Proc.devRef .tc b))) :=
  Pipeline.RDat.θ_run_frame_around_T cfgs (0 : Fin 1) launch0 defs₀ Variants.none
    (fun c => (safeDats m 0 c).toRForget forgetAll) tailWrites m ρ main
    (hbody := fun c => (safe_obligation m c).toRForget)
    (hshare := fun c => ((safeDats m 0 c).toRForget forgetAll).share_full fun _ => rfl)
    (howed := fun _ _ => rfl) (V₀ := V0 m) (opss := [hostOps1]) (hsub := sfx_sub) (hfresh := sfx_fresh)
    (hkeep := sfx_keeps) (hT := tail_writes) (hmain := hmain m Variants.none) (hA := safeA_eq m)
    (hΦ := fun _ _ => rfl)

/-- The frame claim's post, at any instance of the float operations. -/
theorem frame_holds : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      (Eq.mp (congrFun (((safeDats m 0 c).toRForget forgetAll).ArrAt_in 0 rfl _) _) ((h c).1 0)).trans
        ((safeA_eq m c 0).trans (V_main_arg0 m c)),
      (Eq.mp (congrFun (((safeDats m 0 c).toRForget forgetAll).ArrAt_in 1 rfl _) _) ((h c).1 1)).trans
        ((safeA_eq m c 1).trans (V_main_arg1 m c)),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c)⟩)
    (safe_run m ρ)

end Cert.KernelIdeal.Hand

end
-- ==== Proof.IdealTile.lean ====
/-
  The kernel body at one grid point, with the buffers' contents named. Handed the feature tile x0, the mask tile x1,
  the two weight matrices and bias rows, and the accumulator at acc, the body leaves the inputs as they were and the
  accumulator at step i … acc: acc plus the product of the masked mask tile with the masked gated rows. On the first
  tile of a core the accumulator is first overwritten with zeros, so it ends at the step from zero whatever it held; on
  the last tile the new accumulator is also stored, under a leading unit axis, into the result's block. Every load and
  store is of a whole buffer, so what a store leaves is its payload and what a load reads is the buffer's contents.
-/
import proofs.«114824_j76501957477036_2_alg».proof.Proof.IdealSafe
import Idealize.ShloMosaic.Lib.Pipeline.FrameBody
import Idealize.ShloMosaic.Lib.Pipeline.Value
import Idealize.ShloMosaic.Lib.Writes

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- The offsets of a whole-buffer rectangle are zero. -/
theorem hz2 : (![0, 0] : Fin 2 → ℕ) = fun _ => 0 := by funext a; fin_cases a <;> rfl
theorem hz3 : (![0, 0, 0] : Fin 3 → ℕ) = fun _ => 0 := by funext a; fin_cases a <;> rfl

/-- What a grid point leaves in the accumulator that held `acc`, from the six input buffers' contents. -/
def step (i : grid0.Coords) (x0 : Vec F S4096x256 .f32) (x1 : Vec F S256x4096 .i32) (w1 : Vec F S256x256 .bf16)
    (b1 : Vec F S1x256 .f32) (w2 : Vec F S256x256 .bf16) (b2 : Vec F S1x256 .f32) (acc : Vec F S256x256 .f32) :
    Vec F S256x256 .f32 :=
  k0_pay1 (k0_pay4 i x0 w1 w2 b1 b2) (k0_pay5 i) x1 acc

set_option maxHeartbeats 2000000 in
/-- A middle tile: the accumulator goes from `acc` to `step … acc`; the result's block is left as found. -/
theorem tile_middle (c : Dev nD) (i : grid0.Coords) (arg2 : Memref sig .tc .vmem S4096x256 .f32) (harg2 : arg2.IsWhole) (arg3 : Memref sig .tc .vmem S256x4096 .i32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256x256 .f32) (harg8 : arg8.IsWhole) (arg9 : Memref sig .tc .vmem S256x256 .f32) (harg9 : arg9.IsWhole) (h1 : ¬ firstTile i) (h2 : ¬ lastTile i)
    (x0 : Vec F S4096x256 .f32) (x1 : Vec F S256x4096 .i32) (w1 : Vec F S256x256 .bf16) (b1 : Vec F S1x256 .f32) (w2 : Vec F S256x256 .bf16) (b2 : Vec F S1x256 .f32) (y6 : Vec F S1x256x256 .f32) (acc : Vec F S256x256 .f32) :
    ∀ (E : Set ℕ) (K : PUnit → sProp 𝕄),
      iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare y6 ∗ owns (c : Thread nD τ) arg9 fullShare acc
          ∗ (iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare y6 ∗ owns (c : Thread nD τ) arg9 fullShare (step i x0 x1 w1 b1 w2 b2 acc)) -∗ K ⟨⟩))
        ⊢ wp frame (wpE (defs₀ (F := F)) Variants.none c none) E (cc0__agg_kernel i arg2 harg2 arg3 harg3 arg4 harg4 arg5 harg5 arg6 harg6 arg7 harg7 arg8 harg8 arg9 harg9) K := by
  intro E K
  simp only [cc0__agg_kernel_eq_skeleton]; unfold cc0__agg_kernel_skel
  simp only [k0_part1_eq_skeleton]
  unfold owns
  iintro ⟨⟨%farg2, %hfarg2, Harg2⟩, ⟨%farg3, %hfarg3, Harg3⟩, ⟨%farg4, %hfarg4, Harg4⟩, ⟨%farg5, %hfarg5, Harg5⟩, ⟨%farg6, %hfarg6, Harg6⟩, ⟨%farg7, %hfarg7, Harg7⟩, ⟨%farg8, %hfarg8, Harg8⟩, ⟨%farg9, %hfarg9, Harg9⟩, Hk⟩
  obtain rfl := harg2.eq_unread hfarg2
  obtain rfl := harg3.eq_unread hfarg3
  obtain rfl := harg4.eq_unread hfarg4
  obtain rfl := harg5.eq_unread hfarg5
  obtain rfl := harg6.eq_unread hfarg6
  obtain rfl := harg7.eq_unread hfarg7
  obtain rfl := harg8.eq_unread hfarg8
  obtain rfl := harg9.eq_unread hfarg9
  sl_exec (disch := first | exact h1 | exact h2)
  sl_step
  iapply Hk
  isplitl [Harg2]
  · iexists _; isplitr; swap; · iexact Harg2
    ipureintro; exact hfarg2
  isplitl [Harg3]
  · iexists _; isplitr; swap; · iexact Harg3
    ipureintro; exact hfarg3
  isplitl [Harg4]
  · iexists _; isplitr; swap; · iexact Harg4
    ipureintro; exact hfarg4
  isplitl [Harg5]
  · iexists _; isplitr; swap; · iexact Harg5
    ipureintro; exact hfarg5
  isplitl [Harg6]
  · iexists _; isplitr; swap; · iexact Harg6
    ipureintro; exact hfarg6
  isplitl [Harg7]
  · iexists _; isplitr; swap; · iexact Harg7
    ipureintro; exact hfarg7
  isplitl [Harg8]
  · iexists _; isplitr; swap; · iexact Harg8
    ipureintro; exact hfarg8
  iexists _; isplitr; swap; · iexact Harg9
  ipureintro
  sl_unfold_run_names
  rw [View.read_writes_eq_canon _ _ _ (fun y => ⟨_, List.mem_singleton_self _, View.mem_set_unit_zero hz2 inb_S256x256_S256x256_0_0 y⟩),
    View.canon_unit_zero hz2]
  simp only [View.readAt_eq_ld, harg2.read_unread, harg3.read_unread, harg4.read_unread, harg5.read_unread, harg6.read_unread, harg7.read_unread, harg9.read_unread,
      View.ld_unit_zero (S := S4096x256) hz2, View.ld_unit_zero (S := S256x4096) hz2, View.ld_unit_zero (S := S256x256) hz2, View.ld_unit_zero (S := S1x256) hz2]
  rfl

set_option maxHeartbeats 2000000 in
/-- The first tile of a core: whatever the accumulator held, it ends at the step from zeros. -/
theorem tile_first (c : Dev nD) (i : grid0.Coords) (arg2 : Memref sig .tc .vmem S4096x256 .f32) (harg2 : arg2.IsWhole) (arg3 : Memref sig .tc .vmem S256x4096 .i32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256x256 .f32) (harg8 : arg8.IsWhole) (arg9 : Memref sig .tc .vmem S256x256 .f32) (harg9 : arg9.IsWhole) (h1 : firstTile i) (h2 : ¬ lastTile i)
    (x0 : Vec F S4096x256 .f32) (x1 : Vec F S256x4096 .i32) (w1 : Vec F S256x256 .bf16) (b1 : Vec F S1x256 .f32) (w2 : Vec F S256x256 .bf16) (b2 : Vec F S1x256 .f32) (y6 : Vec F S1x256x256 .f32) :
    ∀ (E : Set ℕ) (K : PUnit → sProp 𝕄),
      iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare y6 ∗ (∃ d, owns (c : Thread nD τ) arg9 fullShare d)
          ∗ (iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare y6 ∗ owns (c : Thread nD τ) arg9 fullShare (step i x0 x1 w1 b1 w2 b2 (k0_pay3 (F := F)))) -∗ K ⟨⟩))
        ⊢ wp frame (wpE (defs₀ (F := F)) Variants.none c none) E (cc0__agg_kernel i arg2 harg2 arg3 harg3 arg4 harg4 arg5 harg5 arg6 harg6 arg7 harg7 arg8 harg8 arg9 harg9) K := by
  intro E K
  simp only [cc0__agg_kernel_eq_skeleton]; unfold cc0__agg_kernel_skel
  simp only [k0_part1_eq_skeleton]
  unfold owns
  iintro ⟨⟨%farg2, %hfarg2, Harg2⟩, ⟨%farg3, %hfarg3, Harg3⟩, ⟨%farg4, %hfarg4, Harg4⟩, ⟨%farg5, %hfarg5, Harg5⟩, ⟨%farg6, %hfarg6, Harg6⟩, ⟨%farg7, %hfarg7, Harg7⟩, ⟨%farg8, %hfarg8, Harg8⟩, ⟨%darg9, %farg9, -, Harg9⟩, Hk⟩
  obtain rfl := harg2.eq_unread hfarg2
  obtain rfl := harg3.eq_unread hfarg3
  obtain rfl := harg4.eq_unread hfarg4
  obtain rfl := harg5.eq_unread hfarg5
  obtain rfl := harg6.eq_unread hfarg6
  obtain rfl := harg7.eq_unread hfarg7
  obtain rfl := harg8.eq_unread hfarg8
  sl_exec (disch := first | exact h1 | exact h2)
  sl_step
  iapply Hk
  isplitl [Harg2]
  · iexists _; isplitr; swap; · iexact Harg2
    ipureintro; exact hfarg2
  isplitl [Harg3]
  · iexists _; isplitr; swap; · iexact Harg3
    ipureintro; exact hfarg3
  isplitl [Harg4]
  · iexists _; isplitr; swap; · iexact Harg4
    ipureintro; exact hfarg4
  isplitl [Harg5]
  · iexists _; isplitr; swap; · iexact Harg5
    ipureintro; exact hfarg5
  isplitl [Harg6]
  · iexists _; isplitr; swap; · iexact Harg6
    ipureintro; exact hfarg6
  isplitl [Harg7]
  · iexists _; isplitr; swap; · iexact Harg7
    ipureintro; exact hfarg7
  isplitl [Harg8]
  · iexists _; isplitr; swap; · iexact Harg8
    ipureintro; exact hfarg8
  iexists _; isplitr; swap; · iexact Harg9
  ipureintro
  sl_unfold_run_names
  rw [View.read_writes_eq_canon _ _ _ (fun y => ⟨_, List.mem_cons_self, View.mem_set_unit_zero hz2 inb_S256x256_S256x256_0_0 y⟩),
    View.canon_cons_unit_zero hz2]
  simp only [View.readAt_eq_ld, harg2.read_unread, harg3.read_unread, harg4.read_unread, harg5.read_unread, harg6.read_unread, harg7.read_unread, harg9.read_unread,
      View.ld_unit_zero (S := S4096x256) hz2, View.ld_unit_zero (S := S256x4096) hz2, View.ld_unit_zero (S := S256x256) hz2, View.ld_unit_zero (S := S1x256) hz2, View.readCov_unit_zero (S := S256x256) _ hz2]
  rfl

set_option maxHeartbeats 2000000 in
/-- The last tile of a core: the accumulator goes from `acc` to `step … acc`, and the result's block ends holding that
    with a leading unit axis. -/
theorem tile_last (c : Dev nD) (i : grid0.Coords) (arg2 : Memref sig .tc .vmem S4096x256 .f32) (harg2 : arg2.IsWhole) (arg3 : Memref sig .tc .vmem S256x4096 .i32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256x256 .f32) (harg8 : arg8.IsWhole) (arg9 : Memref sig .tc .vmem S256x256 .f32) (harg9 : arg9.IsWhole) (h1 : ¬ firstTile i) (h2 : lastTile i)
    (x0 : Vec F S4096x256 .f32) (x1 : Vec F S256x4096 .i32) (w1 : Vec F S256x256 .bf16) (b1 : Vec F S1x256 .f32) (w2 : Vec F S256x256 .bf16) (b2 : Vec F S1x256 .f32) (acc : Vec F S256x256 .f32) :
    ∀ (E : Set ℕ) (K : PUnit → sProp 𝕄),
      iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ (∃ d, owns (c : Thread nD τ) arg8 fullShare d) ∗ owns (c : Thread nD τ) arg9 fullShare acc
          ∗ (iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare (k0_pay2 (step i x0 x1 w1 b1 w2 b2 acc)) ∗ owns (c : Thread nD τ) arg9 fullShare (step i x0 x1 w1 b1 w2 b2 acc)) -∗ K ⟨⟩))
        ⊢ wp frame (wpE (defs₀ (F := F)) Variants.none c none) E (cc0__agg_kernel i arg2 harg2 arg3 harg3 arg4 harg4 arg5 harg5 arg6 harg6 arg7 harg7 arg8 harg8 arg9 harg9) K := by
  intro E K
  simp only [cc0__agg_kernel_eq_skeleton]; unfold cc0__agg_kernel_skel
  simp only [k0_part1_eq_skeleton]
  unfold owns
  iintro ⟨⟨%farg2, %hfarg2, Harg2⟩, ⟨%farg3, %hfarg3, Harg3⟩, ⟨%farg4, %hfarg4, Harg4⟩, ⟨%farg5, %hfarg5, Harg5⟩, ⟨%farg6, %hfarg6, Harg6⟩, ⟨%farg7, %hfarg7, Harg7⟩, ⟨%darg8, %farg8, -, Harg8⟩, ⟨%farg9, %hfarg9, Harg9⟩, Hk⟩
  obtain rfl := harg2.eq_unread hfarg2
  obtain rfl := harg3.eq_unread hfarg3
  obtain rfl := harg4.eq_unread hfarg4
  obtain rfl := harg5.eq_unread hfarg5
  obtain rfl := harg6.eq_unread hfarg6
  obtain rfl := harg7.eq_unread hfarg7
  obtain rfl := harg9.eq_unread hfarg9
  sl_exec (disch := first | exact h1 | exact h2)
  sl_step
  iapply Hk
  isplitl [Harg2]
  · iexists _; isplitr; swap; · iexact Harg2
    ipureintro; exact hfarg2
  isplitl [Harg3]
  · iexists _; isplitr; swap; · iexact Harg3
    ipureintro; exact hfarg3
  isplitl [Harg4]
  · iexists _; isplitr; swap; · iexact Harg4
    ipureintro; exact hfarg4
  isplitl [Harg5]
  · iexists _; isplitr; swap; · iexact Harg5
    ipureintro; exact hfarg5
  isplitl [Harg6]
  · iexists _; isplitr; swap; · iexact Harg6
    ipureintro; exact hfarg6
  isplitl [Harg7]
  · iexists _; isplitr; swap; · iexact Harg7
    ipureintro; exact hfarg7
  isplitl [Harg8]
  · iexists _; isplitr; swap; · iexact Harg8
    ipureintro
    sl_unfold_run_names
    rw [View.read_writes_eq_canon _ _ _ (fun y => ⟨_, List.mem_singleton_self _, View.mem_set_unit_zero hz3 inb_S1x256x256_S1x256x256_0_0_0 y⟩),
      View.canon_unit_zero hz3]
    simp only [View.readAt_eq_ld, harg2.read_unread, harg3.read_unread, harg4.read_unread, harg5.read_unread, harg6.read_unread, harg7.read_unread, harg9.read_unread,
      View.ld_unit_zero (S := S4096x256) hz2, View.ld_unit_zero (S := S256x4096) hz2, View.ld_unit_zero (S := S256x256) hz2, View.ld_unit_zero (S := S1x256) hz2, View.readCov_unit_zero (S := S256x256) _ hz2]
    rfl
  iexists _; isplitr; swap; · iexact Harg9
  ipureintro
  sl_unfold_run_names
  rw [View.read_writes_eq_canon _ _ _ (fun y => ⟨_, List.mem_singleton_self _, View.mem_set_unit_zero hz2 inb_S256x256_S256x256_0_0 y⟩),
    View.canon_unit_zero hz2]
  simp only [View.readAt_eq_ld, harg2.read_unread, harg3.read_unread, harg4.read_unread, harg5.read_unread, harg6.read_unread, harg7.read_unread, harg9.read_unread,
      View.ld_unit_zero (S := S4096x256) hz2, View.ld_unit_zero (S := S256x4096) hz2, View.ld_unit_zero (S := S256x256) hz2, View.ld_unit_zero (S := S1x256) hz2]
  rfl

end Cert.KernelIdeal.Hand

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.LibDenseRows.lean ====
/-
  Dense layers, one row at a time. A dense layer sends a row v of K numbers to the row whose entry q is
  (∑ₖ v k · w(k, q)) + b q; followed by the maximum with zero it is a rectifier layer, followed by the logistic
  function a sigmoid layer. A row of the result depends on the same row of the operand only, so a stack of such
  layers applied to a matrix is the stack applied to each row. Stated here, on the extended reals and general in
  the three extents: the layer on rows (affineRow, reluRow, logisticRow) and two spellings of it on whole matrices,
  read at an entry — a kernel's (operands narrowed to bf16, a matrix product into a zero accumulator, a one-row
  bias [1, N] laid along every row) and a host program's (dot_general, the bias [N] laid as a row [1, N] and spread
  over [M, N]; the rectifier as a maximum with a splat zero; the sigmoid written 1 / (1 + exp (−z))).
-/
import proofs.«114824_j76501957477036_2_alg».proof.Proof.LibPlainDot
import Idealize.ShloMosaic.Lib.ValueLayout
import Idealize.ShloMosaic.Lib.IdealHost
import Idealize.ShloMosaic.Lib.KernelVsHost
import Idealize.ShloMosaic.Lib.Pipeline.Value

noncomputable section

namespace Idealize.ShloMosaic.DenseRows

open Idealize.ShloMosaic Idealize.ShloMosaic.ValueIdx
open scoped BigOperators

/-! ## A layer on one row -/

/-- The affine part of a dense layer on the row `v`: entry `q` is `(∑ₖ v k · w k q) + b q`. -/
def affineRow {K N : ℕ} (w : Fin K → Fin N → EReal) (b : Fin N → EReal) (v : Fin K → EReal) : Fin N → EReal :=
  fun q => (∑ k : Fin K, v k * w k q) + b q

/-- A rectifier layer on a row: the affine part, then the maximum with zero. -/
def reluRow {K N : ℕ} (w : Fin K → Fin N → EReal) (b : Fin N → EReal) (v : Fin K → EReal) : Fin N → EReal :=
  fun q => max (affineRow w b v q) 0

/-- A sigmoid layer on a row: the affine part, then the logistic function. -/
def logisticRow {K N : ℕ} (w : Fin K → Fin N → EReal) (b : Fin N → EReal) (v : Fin K → EReal) : Fin N → EReal :=
  fun q => Ideal.logistic (affineRow w b v q)

/-! ## Arrays by coordinates -/

/-- A matrix as a function of its two coordinates; `entries x p` is its row `p`. -/
def entries {A B : ℕ} (x : (⟨2, ![A, B]⟩ : Shape).Idx → EReal) : Fin A → Fin B → EReal := fun a b => x (ix2 a b)

/-- A vector as a function of its coordinate. -/
def vecEntries {N : ℕ} (b : (⟨1, ![N]⟩ : Shape).Idx → EReal) : Fin N → EReal := fun q => b (ix1 q)

/-- A one-row matrix as a function of its column. -/
def rowEntries {N : ℕ} (b : (⟨2, ![1, N]⟩ : Shape).Idx → EReal) : Fin N → EReal := fun q => b (ix2 (0 : Fin 1) q)

variable {M K N : ℕ}

/-! ## A kernel's spelling -/

/-- The affine part as a kernel body writes it on a block of rows: the rows narrowed to bf16, the matrix product
    with the weights into a zero accumulator, the bias row laid along every row and added. -/
def kernelAffine (d : DotDims ⟨2, ![M, K]⟩ ⟨2, ![K, N]⟩ ⟨2, ![M, N]⟩)
    (x : FVec Ideal ⟨2, ![M, K]⟩ .f32) (hx : FTy.bits .bf16 < FTy.bits .f32)
    (w : FVec Ideal ⟨2, ![K, N]⟩ .bf16) (hw : (⟨2, ![K, N]⟩ : Shape).ShapeCasts ⟨2, ![K, N]⟩)
    (b : FVec Ideal ⟨2, ![1, N]⟩ .f32) (hb : (⟨2, ![1, N]⟩ : Shape).ShapeCasts ⟨2, ![1, N]⟩)
    (hbc : (⟨2, ![1, N]⟩ : Shape).Broadcasts ⟨2, ![M, N]⟩) : FVec Ideal ⟨2, ![M, N]⟩ .f32 :=
  addf (matmul d none (truncf .bf16 x hx) (shapeCast ⟨2, ![K, N]⟩ w hw) (constant ⟨2, ![M, N]⟩ .f32 0x00000000#32))
    (broadcastTo ⟨2, ![M, N]⟩ (shapeCast ⟨2, ![1, N]⟩ b hb) hbc)

/-- Row `p` of the kernel's affine part is the affine map of row `p` of the operand. -/
theorem kernelAffine_apply (d : DotDims ⟨2, ![M, K]⟩ ⟨2, ![K, N]⟩ ⟨2, ![M, N]⟩) (hd : d = DotDims.plain M K N)
    (x : FVec Ideal ⟨2, ![M, K]⟩ .f32) (hx : FTy.bits .bf16 < FTy.bits .f32)
    (w : FVec Ideal ⟨2, ![K, N]⟩ .bf16) (hw : (⟨2, ![K, N]⟩ : Shape).ShapeCasts ⟨2, ![K, N]⟩)
    (b : FVec Ideal ⟨2, ![1, N]⟩ .f32) (hb : (⟨2, ![1, N]⟩ : Shape).ShapeCasts ⟨2, ![1, N]⟩)
    (hbc : (⟨2, ![1, N]⟩ : Shape).Broadcasts ⟨2, ![M, N]⟩) (p : Fin M) (q : Fin N) :
    kernelAffine d x hx w hw b hb hbc (ix2 p q) = affineRow (entries w) (rowEntries b) (entries x p) q := by
  unfold kernelAffine affineRow entries rowEntries
  show FloatOps.matmul d none (truncf .bf16 x hx) (shapeCast ⟨2, ![K, N]⟩ w hw) (constant ⟨2, ![M, N]⟩ .f32 0x00000000#32) (ix2 p q)
      + broadcastTo ⟨2, ![M, N]⟩ (shapeCast ⟨2, ![1, N]⟩ b hb) hbc (ix2 p q) = _
  rw [matmul_plain_zero_apply d hd, broadcastTo_1b_ab_apply, shapeCast_self, shapeCast_self]
  rfl

/-- A rectifier layer as a kernel body writes it: the affine part and the maximum with a splat zero. -/
def kernelRelu (d : DotDims ⟨2, ![M, K]⟩ ⟨2, ![K, N]⟩ ⟨2, ![M, N]⟩)
    (x : FVec Ideal ⟨2, ![M, K]⟩ .f32) (hx : FTy.bits .bf16 < FTy.bits .f32)
    (w : FVec Ideal ⟨2, ![K, N]⟩ .bf16) (hw : (⟨2, ![K, N]⟩ : Shape).ShapeCasts ⟨2, ![K, N]⟩)
    (b : FVec Ideal ⟨2, ![1, N]⟩ .f32) (hb : (⟨2, ![1, N]⟩ : Shape).ShapeCasts ⟨2, ![1, N]⟩)
    (hbc : (⟨2, ![1, N]⟩ : Shape).Broadcasts ⟨2, ![M, N]⟩) : FVec Ideal ⟨2, ![M, N]⟩ .f32 :=
  maximumf (kernelAffine d x hx w hw b hb hbc) (broadcast ⟨2, ![M, N]⟩ (Scalar.ofBits (F := Ideal) .f32 0x00000000#32))

/-- Row `p` of the kernel's rectifier layer is the rectifier layer of row `p` of the operand. -/
theorem kernelRelu_apply (d : DotDims ⟨2, ![M, K]⟩ ⟨2, ![K, N]⟩ ⟨2, ![M, N]⟩) (hd : d = DotDims.plain M K N)
    (x : FVec Ideal ⟨2, ![M, K]⟩ .f32) (hx : FTy.bits .bf16 < FTy.bits .f32)
    (w : FVec Ideal ⟨2, ![K, N]⟩ .bf16) (hw : (⟨2, ![K, N]⟩ : Shape).ShapeCasts ⟨2, ![K, N]⟩)
    (b : FVec Ideal ⟨2, ![1, N]⟩ .f32) (hb : (⟨2, ![1, N]⟩ : Shape).ShapeCasts ⟨2, ![1, N]⟩)
    (hbc : (⟨2, ![1, N]⟩ : Shape).Broadcasts ⟨2, ![M, N]⟩) (p : Fin M) (q : Fin N) :
    kernelRelu d x hx w hw b hb hbc (ix2 p q) = reluRow (entries w) (rowEntries b) (entries x p) q := by
  unfold kernelRelu reluRow
  show max (kernelAffine d x hx w hw b hb hbc (ix2 p q)) (Ideal.ofBits .f32 0x00000000#32) = _
  rw [kernelAffine_apply d hd, Ideal.ofBits_zero_f32]

/-- The same, a whole row at a time: what the next layer of a stack reads. -/
theorem kernelRelu_row (d : DotDims ⟨2, ![M, K]⟩ ⟨2, ![K, N]⟩ ⟨2, ![M, N]⟩) (hd : d = DotDims.plain M K N)
    (x : FVec Ideal ⟨2, ![M, K]⟩ .f32) (hx : FTy.bits .bf16 < FTy.bits .f32)
    (w : FVec Ideal ⟨2, ![K, N]⟩ .bf16) (hw : (⟨2, ![K, N]⟩ : Shape).ShapeCasts ⟨2, ![K, N]⟩)
    (b : FVec Ideal ⟨2, ![1, N]⟩ .f32) (hb : (⟨2, ![1, N]⟩ : Shape).ShapeCasts ⟨2, ![1, N]⟩)
    (hbc : (⟨2, ![1, N]⟩ : Shape).Broadcasts ⟨2, ![M, N]⟩) (p : Fin M) :
    entries (kernelRelu d x hx w hw b hb hbc) p = reluRow (entries w) (rowEntries b) (entries x p) :=
  funext fun q => kernelRelu_apply d hd x hx w hw b hb hbc p q

/-- A sigmoid layer as a kernel body writes it: the affine part and the logistic operation. -/
def kernelLogistic (d : DotDims ⟨2, ![M, K]⟩ ⟨2, ![K, N]⟩ ⟨2, ![M, N]⟩)
    (x : FVec Ideal ⟨2, ![M, K]⟩ .f32) (hx : FTy.bits .bf16 < FTy.bits .f32)
    (w : FVec Ideal ⟨2, ![K, N]⟩ .bf16) (hw : (⟨2, ![K, N]⟩ : Shape).ShapeCasts ⟨2, ![K, N]⟩)
    (b : FVec Ideal ⟨2, ![1, N]⟩ .f32) (hb : (⟨2, ![1, N]⟩ : Shape).ShapeCasts ⟨2, ![1, N]⟩)
    (hbc : (⟨2, ![1, N]⟩ : Shape).Broadcasts ⟨2, ![M, N]⟩) : FVec Ideal ⟨2, ![M, N]⟩ .f32 :=
  logistic (kernelAffine d x hx w hw b hb hbc)

/-- Row `p` of the kernel's sigmoid layer is the sigmoid layer of row `p` of the operand. -/
theorem kernelLogistic_apply (d : DotDims ⟨2, ![M, K]⟩ ⟨2, ![K, N]⟩ ⟨2, ![M, N]⟩) (hd : d = DotDims.plain M K N)
    (x : FVec Ideal ⟨2, ![M, K]⟩ .f32) (hx : FTy.bits .bf16 < FTy.bits .f32)
    (w : FVec Ideal ⟨2, ![K, N]⟩ .bf16) (hw : (⟨2, ![K, N]⟩ : Shape).ShapeCasts ⟨2, ![K, N]⟩)
    (b : FVec Ideal ⟨2, ![1, N]⟩ .f32) (hb : (⟨2, ![1, N]⟩ : Shape).ShapeCasts ⟨2, ![1, N]⟩)
    (hbc : (⟨2, ![1, N]⟩ : Shape).Broadcasts ⟨2, ![M, N]⟩) (p : Fin M) (q : Fin N) :
    kernelLogistic d x hx w hw b hb hbc (ix2 p q) = logisticRow (entries w) (rowEntries b) (entries x p) q := by
  unfold kernelLogistic logisticRow
  show Ideal.logistic (kernelAffine d x hx w hw b hb hbc (ix2 p q)) = _
  rw [kernelAffine_apply d hd]

/-! ## A host program's spelling -/

/-- A vector `[N]` laid as the one-row matrix `[1, N]`: entry `(u, q)` is the vector's entry `q`. -/
theorem broadcastInDim_vec_row_apply {α : Type} (b : (⟨1, ![N]⟩ : Shape).Idx → α)
    (h : (⟨1, ![N]⟩ : Shape).BroadcastsInDim ⟨2, ![1, N]⟩ (![1] : Fin 1 → Fin 2)) (u : Fin 1) (q : Fin N) :
    broadcastInDim ⟨2, ![1, N]⟩ ![1] h b (ix2 u q) = b (ix1 q) := by
  refine broadcastInDim_apply _ h b _ (ix1 q) fun ax => ?_
  match ax with
  | ⟨0, _⟩ =>
    show q.val = if N = 1 then 0 else q.val
    split
    · have := q.isLt; omega
    · rfl

/-- The affine part as a host program writes it: dot_general, the bias vector laid as a row and spread over the
    rows, added. -/
def hostAffine (d : DotDims ⟨2, ![M, K]⟩ ⟨2, ![K, N]⟩ ⟨2, ![M, N]⟩)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) : FVec Ideal ⟨2, ![M, N]⟩ .f32 :=
  addf (Host.dotGeneral d none x w) (broadcastInDim ⟨2, ![M, N]⟩ ![0, 1] h2 (broadcastInDim ⟨2, ![1, N]⟩ ![1] h1 b))

/-- Row `p` of the host's affine part is the affine map of row `p` of the operand. -/
theorem hostAffine_apply (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (p : Fin M) (q : Fin N) :
    hostAffine d x w b h1 h2 (ix2 p q) = affineRow (entries w) (vecEntries b) (entries x p) q := by
  unfold hostAffine affineRow entries vecEntries
  show FloatOps.dotGeneral d none .single x w (ix2 p q)
      + broadcastInDim ⟨2, ![M, N]⟩ ![0, 1] h2 (broadcastInDim ⟨2, ![1, N]⟩ ![1] h1 b) (ix2 p q) = _
  rw [dotGeneral_plain_apply d hd, broadcastInDim_oneRow_apply, broadcastInDim_vec_row_apply]

/-- A rectifier layer as a host program writes it: the affine part and the maximum with a zero splat. -/
def hostRelu (d : DotDims ⟨2, ![M, K]⟩ ⟨2, ![K, N]⟩ ⟨2, ![M, N]⟩)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) : FVec Ideal ⟨2, ![M, N]⟩ .f32 :=
  maximumf (hostAffine d x w b h1 h2) (broadcastInDim ⟨2, ![M, N]⟩ ![] h0 (constant (F := Ideal) ⟨0, ![]⟩ .f32 0x00000000#32))

/-- Row `p` of the host's rectifier layer is the rectifier layer of row `p` of the operand. -/
theorem hostRelu_apply (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (p : Fin M) (q : Fin N) :
    hostRelu d x w b h1 h2 h0 (ix2 p q) = reluRow (entries w) (vecEntries b) (entries x p) q := by
  unfold hostRelu reluRow
  show max (hostAffine d x w b h1 h2 (ix2 p q))
      (broadcastInDim ⟨2, ![M, N]⟩ ![] h0 (constant (F := Ideal) ⟨0, ![]⟩ .f32 0x00000000#32) (ix2 p q)) = _
  rw [hostAffine_apply d hd, broadcastInDim_scalar_apply]
  show max _ (Ideal.ofBits .f32 0x00000000#32) = _
  rw [Ideal.ofBits_zero_f32]

/-- The same, a whole row at a time: what the next layer of a stack reads. -/
theorem hostRelu_row (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (p : Fin M) :
    entries (hostRelu d x w b h1 h2 h0) p = reluRow (entries w) (vecEntries b) (entries x p) :=
  funext fun q => hostRelu_apply d hd x w b h1 h2 h0 p q

/-- A sigmoid layer as a host program writes it: one over one plus the exponential of the negated affine part,
    the ones splat from the constant 1.0. -/
def hostSigmoid (d : DotDims ⟨2, ![M, K]⟩ ⟨2, ![K, N]⟩ ⟨2, ![M, N]⟩)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) : FVec Ideal ⟨2, ![M, N]⟩ .f32 :=
  Host.divf (broadcastInDim ⟨2, ![M, N]⟩ ![] h0 (constant (F := Ideal) ⟨0, ![]⟩ .f32 0x3F800000#32))
    (addf (broadcastInDim ⟨2, ![M, N]⟩ ![] h0 (constant (F := Ideal) ⟨0, ![]⟩ .f32 0x3F800000#32))
      (Host.exp (Host.negf (hostAffine d x w b h1 h2))))

/-- Row `p` of the host's sigmoid layer is the sigmoid layer of row `p` of the operand: the logistic function
    is one over one plus the exponential of the negative, at every extended real. -/
theorem hostSigmoid_apply (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (p : Fin M) (q : Fin N) :
    hostSigmoid d x w b h1 h2 h0 (ix2 p q) = logisticRow (entries w) (vecEntries b) (entries x p) q := by
  unfold hostSigmoid logisticRow
  show Ideal.div (broadcastInDim ⟨2, ![M, N]⟩ ![] h0 (constant (F := Ideal) ⟨0, ![]⟩ .f32 0x3F800000#32) (ix2 p q))
      (broadcastInDim ⟨2, ![M, N]⟩ ![] h0 (constant (F := Ideal) ⟨0, ![]⟩ .f32 0x3F800000#32) (ix2 p q)
        + Ideal.exp (-(hostAffine d x w b h1 h2 (ix2 p q)))) = _
  rw [hostAffine_apply d hd, broadcastInDim_scalar_apply]
  show Ideal.div (Ideal.ofBits .f32 0x3F800000#32) (Ideal.ofBits .f32 0x3F800000#32 + _) = _
  rw [Ideal.ofBits_one_f32]
  rfl

end Idealize.ShloMosaic.DenseRows

end
-- ==== Proof.Spec.lean ====
/-
  What the two programs compute, stated once. A node with feature row v (256 numbers) contributes, in output
  feature d, the product of its projected value (v·wt + bt)_d and its gate σ((v·wg + bg)_d); an owner b sums the
  contributions of the nodes its mask row selects: ownerSum b d = ∑ₙ mk b n · gated(row n) d over all 200000 nodes.
  The kernel reaches the same number tile by tile: 4096 nodes at a time, each position of the tile multiplied by a
  keep factor that is 1 below the count of nodes the tile really has and 0 from there on, a core adding its 25 tiles'
  sums left to right onto zero, the two cores' totals added at the end. All numbers are extended reals.
-/
import proofs.«114824_j76501957477036_2_alg».proof.Proof.LibDenseRows

noncomputable section

namespace Cert.OwnerSum

open Idealize.ShloMosaic Idealize.ShloMosaic.DenseRows
open scoped BigOperators

/-- Entry `d` of a node's gated features: its projection times its gate. -/
def gated (wt wg : Fin 256 → Fin 256 → EReal) (bt bg : Fin 256 → EReal) (v : Fin 256 → EReal) (d : Fin 256) : EReal :=
  affineRow wt bt v d * logisticRow wg bg v d

/-- Owner `b`'s sum in feature `d` over all nodes: `mk b n` the mask entry, `row n` node `n`'s features. -/
def ownerSum (wt wg : Fin 256 → Fin 256 → EReal) (bt bg : Fin 256 → EReal)
    (mk : Fin 256 → Fin 200000 → EReal) (row : Fin 200000 → Fin 256 → EReal) (b d : Fin 256) : EReal :=
  ∑ n : Fin 200000, mk b n * gated wt wg bt bg (row n) d

/-- Node `n`'s term of that sum as a function of a natural number, zero past the last node. -/
def term (wt wg : Fin 256 → Fin 256 → EReal) (bt bg : Fin 256 → EReal)
    (mk : Fin 256 → Fin 200000 → EReal) (row : Fin 200000 → Fin 256 → EReal) (b d : Fin 256) (n : ℕ) : EReal :=
  if h : n < 200000 then mk b ⟨n, h⟩ * gated wt wg bt bg (row ⟨n, h⟩) d else 0

/-- The keep factor of position `r` in a tile that has `valid` real positions (`valid` may be negative or exceed the
    tile): one below `valid`, zero from there on. -/
def keep (valid : ℤ) (r : ℕ) : EReal := if (r : ℤ) < valid then 1 else 0

/-- The number of real positions of tile `T`: what is left of the 200000 nodes after `T` tiles of 4096. -/
def validOf (T : ℕ) : ℤ := 200000 - 4096 * (T : ℤ)

/-- What tile `T` adds to owner `b`'s accumulator in feature `d`, from the two staged tiles' contents: `mkT b r` the
    mask tile's entry and `rowT r` the feature tile's row at position `r` (anything where the tile overhangs the
    arrays), both sides of each product multiplied by the keep factor. -/
def tileSum (wt wg : Fin 256 → Fin 256 → EReal) (bt bg : Fin 256 → EReal) (T : ℕ)
    (mkT : Fin 256 → Fin 4096 → EReal) (rowT : Fin 4096 → Fin 256 → EReal) (b d : Fin 256) : EReal :=
  ∑ r : Fin 4096, (mkT b r * keep (validOf T) r.val) * (gated wt wg bt bg (rowT r) d * keep (validOf T) r.val)

/-- A core's accumulator after its tile `j`: zero plus the first tile's sum, then each later tile's sum added on. -/
def coreAcc (g : ℕ → EReal) : ℕ → EReal
  | 0 => 0 + g 0
  | j + 1 => coreAcc g j + g (j + 1)

end Cert.OwnerSum

end
-- ==== Proof.ValueData.lean ====
/-
  The proof data of the value run. The region finds six arrays: the node features, the owner masks, and the two
  weight matrices (already transposed by the host lines before the region) and bias rows. From them the specification's
  ingredients are read by coordinates, and the accumulator's contents after every grid point are NAMED: after tile j of
  core c the accumulator holds, at owner b and feature d, the core's accumulation through tile j of the tiles' plain
  sums of terms. The region's invariant says exactly that; the result's block, stored on a core's last tile, is that
  accumulator under a leading unit axis. The two tiled windows' last block overhangs its array: the data names their staging buffers
  only on the part a fetch moves (the block inside the array), and there the buffer holds the array's block at every
  point, fetched there or not.
-/
import proofs.«114824_j76501957477036_2_alg».proof.Proof.IdealTile
import proofs.«114824_j76501957477036_2_alg».proof.Proof.IdealFrame
import proofs.«114824_j76501957477036_2_alg».proof.Proof.Spec
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx Cert.OwnerSum
open scoped BigOperators

local notation "𝕄" => MT nD τ sig Unit (Elt Ideal) ℕ (UR sig nD τ) ℕ

variable (m : (ℓ : Loc nD τ sig) → Buf (Elt Ideal) ℓ) (ρ : Dev nD → PrngReg)

/-! ## The arrays as the region finds them, by coordinates -/

/-- The projection weights as staged: entry (k, q) multiplies input feature k into output feature q. -/
def wtE (c : Dev nD) : Fin 256 → Fin 256 → EReal := fun k q => (V m c main_v1 : S256x256.Idx → EReal) (ix2 k q)
/-- The gate weights as staged. -/
def wgE (c : Dev nD) : Fin 256 → Fin 256 → EReal := fun k q => (V m c main_v3 : S256x256.Idx → EReal) (ix2 k q)
/-- The projection bias, a one-row matrix. -/
def btE (c : Dev nD) : Fin 256 → EReal := fun q => (V m c main_v4 : S1x256.Idx → EReal) (ix2 (0 : Fin 1) q)
/-- The gate bias, a one-row matrix. -/
def bgE (c : Dev nD) : Fin 256 → EReal := fun q => (V m c main_v5 : S1x256.Idx → EReal) (ix2 (0 : Fin 1) q)
/-- The owner masks as numbers. -/
def mkE (c : Dev nD) : Fin 256 → Fin 200000 → EReal :=
  fun b n => ((((V m c main_arg1 : S256x200000.Idx → BitVec 32) (ix2 b n)).toInt : ℝ) : EReal)
/-- The node features by node. -/
def rowE (c : Dev nD) : Fin 200000 → Fin 256 → EReal := fun n k => (V m c main_arg0 : S200000x256.Idx → EReal) (ix2 n k)

/-- Owner b's, feature d's plain sum of the terms of tile T. -/
def tileTerms (c : Dev nD) (T : ℕ) (b d : Fin 256) : EReal :=
  ∑ r : Fin 4096, term (wtE m c) (wgE m c) (btE m c) (bgE m c) (mkE m c) (rowE m c) b d (4096 * T + r.val)

/-- The accumulator after tile `j` of core `core`. -/
def accSpec (c : Dev nD) (core j : ℕ) : Vec Ideal S256x256 .f32 := fun ix =>
  coreAcc (fun j' => tileTerms m c (25 * core + j') (ix 0) (ix 1)) j

/-! ## The invariant and the data -/

/-- Before the first point the accumulator holds anything; after point n it holds the named contents: n / 25 is the
    core and n % 25 the tile of point n. -/
def PhiV (c : Dev nD) : ℕ → sProp 𝕄
  | 0 => Pipeline.ΦA spec0 c
  | n + 1 => iprop(iprop(owns (c : Thread nD τ) (Memref.whole cc0_scratch0) fullShare (accSpec m c (n / 25) (n % 25)))
      ∗ (∃ r, prngReg c r))

theorem PhiV_zero (c : Dev nD) : PhiV m c 0 = Pipeline.ΦA spec0 c := rfl
theorem PhiV_succ (c : Dev nD) (n : ℕ) : PhiV m c (n + 1)
    = iprop(iprop(owns (c : Thread nD τ) (Memref.whole cc0_scratch0) fullShare (accSpec m c (n / 25) (n % 25)))
      ∗ (∃ r, prngReg c r)) := rfl

/-- The proof data: the arrays as the region finds them; the four whole-array windows at their blocks; the result's
    block at the accumulator under a unit axis; the invariant `PhiV`; the two tiled windows at their blocks inside the
    arrays and at nothing named past the arrays' end. -/
def valDats (_ : Fin 1) (c : Dev nD) : Dat τ (Elt Ideal) Unit ℕ (UR sig nD τ) ℕ cfg0 c where
  A w := V m c (Pipeline.arrRef spec0 w)
  after w t := match w with
    | ⟨0, h⟩ => win0_0.fill (grid0.coords t) (Pipeline.Dat.unnamed (cfg := cfg0) ⟨0, h⟩ t) (iblk m c 0 t)
    | ⟨1, h⟩ => win0_1.fill (grid0.coords t) (Pipeline.Dat.unnamed (cfg := cfg0) ⟨1, h⟩ t) (iblk m c 1 t)
    | ⟨2, _⟩ => iblk m c 2 t
    | ⟨3, _⟩ => iblk m c 3 t
    | ⟨4, _⟩ => iblk m c 4 t
    | ⟨5, _⟩ => iblk m c 5 t
    | ⟨6, _⟩ => k0_pay2 (F := Ideal) (accSpec m c (t.val / 25) (t.val % 25))
  Φ t := PhiV m c t.val
  q _ := fullShare
  owed _ := 0

theorem valA_eq (c : Dev nD) (w : Fin cfg0.W) : (valDats m 0 c).A w = V m c (Pipeline.arrRef spec0 w) := by
  dsimp only [valDats]
theorem after_2 (c : Dev nD) (t : Fin cfg0.N) : (valDats m 0 c).after 2 t = iblk m c 2 t := by dsimp only [valDats]
theorem after_3 (c : Dev nD) (t : Fin cfg0.N) : (valDats m 0 c).after 3 t = iblk m c 3 t := by dsimp only [valDats]
theorem after_4 (c : Dev nD) (t : Fin cfg0.N) : (valDats m 0 c).after 4 t = iblk m c 4 t := by dsimp only [valDats]
theorem after_5 (c : Dev nD) (t : Fin cfg0.N) : (valDats m 0 c).after 5 t = iblk m c 5 t := by dsimp only [valDats]
theorem after_6 (c : Dev nD) (t : Fin cfg0.N) :
    (valDats m 0 c).after 6 t = k0_pay2 (F := Ideal) (accSpec m c (t.val / 25) (t.val % 25)) := by dsimp only [valDats]

theorem after_0 (c : Dev nD) (t : Fin cfg0.N) : (valDats m 0 c).after 0 t
    = win0_0.fill (grid0.coords t) (Pipeline.Dat.unnamed (cfg := cfg0) 0 t) (iblk m c 0 t) := by dsimp only [valDats]; rfl
theorem after_1 (c : Dev nD) (t : Fin cfg0.N) : (valDats m 0 c).after 1 t
    = win0_1.fill (grid0.coords t) (Pipeline.Dat.unnamed (cfg := cfg0) 1 t) (iblk m c 1 t) := by dsimp only [valDats]; rfl

/-! ## What the body finds -/

/-- What a fetch of a tiled window moves is decided by its block index alone. -/
theorem clip_0 (t t' : Fin cfg0.N) (h : (cfg0.win 0).index t = (cfg0.win 0).index t') :
    (cfg0.win 0).clip (cfg0.grid.coords t) = (cfg0.win 0).clip (cfg0.grid.coords t') := by
  funext a
  have e : cc0_transform_0 (grid0.coords t) a = cc0_transform_0 (grid0.coords t') a := congrFun h a
  show Pipeline.Clip.of (cc0_transform_0 (grid0.coords t) a) _ _ = Pipeline.Clip.of (cc0_transform_0 (grid0.coords t') a) _ _
  rw [e]
theorem clip_1 (t t' : Fin cfg0.N) (h : (cfg0.win 1).index t = (cfg0.win 1).index t') :
    (cfg0.win 1).clip (cfg0.grid.coords t) = (cfg0.win 1).clip (cfg0.grid.coords t') := by
  funext a
  have e : cc0_transform_1 (grid0.coords t) a = cc0_transform_1 (grid0.coords t') a := congrFun h a
  show Pipeline.Clip.of (cc0_transform_1 (grid0.coords t) a) _ _ = Pipeline.Clip.of (cc0_transform_1 (grid0.coords t') a) _ _
  rw [e]

/-- The part of a tiled window's buffer a transfer moves holds, after the body, the array's block. -/
theorem cut_after_0 (c : Dev nD) (t : Fin cfg0.N) :
    (cfg0.win 0).cut (cfg0.grid.coords t) ((valDats m 0 c).after 0 t) = iblk m c 0 t := by
  rw [after_0]; exact win0_0.cut_fill _ _ _
theorem cut_after_1 (c : Dev nD) (t : Fin cfg0.N) :
    (cfg0.win 1).cut (cfg0.grid.coords t) ((valDats m 0 c).after 1 t) = iblk m c 1 t := by
  rw [after_1]; exact win0_1.cut_fill _ _ _

/-- At every point, fetched there or not, the feature tile's buffer holds the array's block where the block lies
    inside the array (the fiftieth point keeps the forty-ninth's block, which is its own). -/
theorem before_0 (c : Dev nD) (t : Fin cfg0.N) (d) :
    (valDats m 0 c).before 0 t d = win0_0.fill (grid0.coords t) d (iblk m c 0 t) :=
  ((valDats m 0 c).before_in_eq_fetched 0 rfl (fun _ => rfl) clip_0
    (fun t => by rw [cut_after_0]; unfold Dat.blockOf iblk; rw [valA_eq]; try rfl) t d).trans
    (by unfold Dat.fetched Dat.blockOf iblk; rw [valA_eq]; try rfl)
/-- And the mask tile's likewise. -/
theorem before_1 (c : Dev nD) (t : Fin cfg0.N) (d) :
    (valDats m 0 c).before 1 t d = win0_1.fill (grid0.coords t) d (iblk m c 1 t) :=
  ((valDats m 0 c).before_in_eq_fetched 1 rfl (fun _ => rfl) clip_1
    (fun t => by rw [cut_after_1]; unfold Dat.blockOf iblk; rw [valA_eq]; try rfl) t d).trans
    (by unfold Dat.fetched Dat.blockOf iblk; rw [valA_eq]; try rfl)

/-- A whole-array window's buffer holds the array at every point. -/
theorem before_2 (c : Dev nD) (t : Fin cfg0.N) (d) : (valDats m 0 c).before 2 t d = iblk m c 2 t :=
  before0_2_of m (valDats m 0 c) (valA_eq m c 2) (after_2 m c) t d
theorem before_3 (c : Dev nD) (t : Fin cfg0.N) (d) : (valDats m 0 c).before 3 t d = iblk m c 3 t :=
  before0_3_of m (valDats m 0 c) (valA_eq m c 3) (after_3 m c) t d
theorem before_4 (c : Dev nD) (t : Fin cfg0.N) (d) : (valDats m 0 c).before 4 t d = iblk m c 4 t :=
  before0_4_of m (valDats m 0 c) (valA_eq m c 4) (after_4 m c) t d
theorem before_5 (c : Dev nD) (t : Fin cfg0.N) (d) : (valDats m 0 c).before 5 t d = iblk m c 5 t :=
  before0_5_of m (valDats m 0 c) (valA_eq m c 5) (after_5 m c) t d

end Cert.KernelIdeal.Hand

end
-- ==== Proof.LibBitSums.lean ====
/-
  Two general facts about indicator sums on the extended reals.

  A comparison's bit turned into a float either way — zero-extended to 32 bits and converted as a signed integer, or
  converted directly as an unsigned one — is the same 0 or 1 (`sitofp_setWidth_bit`).  A sum over `m·n` consecutive
  naturals is the sum of its `m` runs of `n` (`sum_runs`): what lets a count taken block by block meet a count taken
  over the whole range.
-/
import Idealize.ShloMosaic.PureOps.Ideal

noncomputable section

namespace Cert.LibBitSums

open Idealize.ShloMosaic
open scoped BigOperators

/-- A one-bit word widened to 32 bits and read signed is the bit read unsigned: both are 0 or 1. -/
theorem bit_toInt : ∀ b : BitVec 1, (b.setWidth 32).toInt = (b.toNat : ℤ) := by decide

/-- At the ideal instance, converting a one-bit word widened to 32 bits as a signed integer gives the same extended real
    as converting the bit as an unsigned integer (an `extui` then `sitofp` against a direct `uitofp`). -/
theorem sitofp_setWidth_bit (b : BitVec 1) :
    FloatOps.sitofp (F := Ideal) .f32 (b.setWidth 32) = FloatOps.uitofp (F := Ideal) .f32 b := by
  show (((b.setWidth 32).toInt : ℝ) : EReal) = ((b.toNat : ℝ) : EReal)
  rw [bit_toInt b]; norm_cast

/-- A sum over `m·n` consecutive naturals is the sum of its `m` runs of `n`: position `n·s + l` is run `s`, place `l`. -/
theorem sum_runs {M : Type*} [AddCommMonoid M] (m n : ℕ) (f : ℕ → M) :
    ∑ s ∈ Finset.range m, ∑ l : Fin n, f (n * s + l.val) = ∑ b : Fin (m * n), f b.val := by
  rw [Finset.sum_range (fun s => ∑ l : Fin n, f (n * s + l.val))]
  rw [← Equiv.sum_comp (finProdFinEquiv (m := m) (n := n)) (fun b : Fin (m * n) => f b.val)]
  rw [Fintype.sum_prod_type]
  refine Finset.sum_congr rfl fun s _ => Finset.sum_congr rfl fun l _ => ?_
  rw [finProdFinEquiv_apply_val, Nat.add_comm]

end Cert.LibBitSums

end
-- ==== Proof.TileAlgebra.lean ====
/-
  Pure algebra on the extended reals behind the tile-by-tile owner sum.

  A tile's masked sum is the plain sum of that tile's terms: where a position is a real node both keep factors are
  one and the product is the node's term; where it is not, both keep factors are zero, and `(x * 0) * (y * 0) = 0`
  for every extended real `x`, `y`, which is also the term past the last node.  A core's left-to-right accumulation
  onto zero is a plain sum.  Fifty tiles of 4096 positions cover the naturals below 204800, of which only those below
  200000 carry a nonzero term, so the two cores' totals add up to the sum over the 200000 nodes.
-/
import proofs.«114824_j76501957477036_2_alg».proof.Proof.Spec
import proofs.«114824_j76501957477036_2_alg».proof.Proof.LibBitSums

noncomputable section

namespace Cert.OwnerSum

open Idealize.ShloMosaic Idealize.ShloMosaic.DenseRows
open scoped BigOperators

/-- A core's accumulation is the plain sum of what its tiles add. -/
theorem coreAcc_eq_sum (g : ℕ → EReal) (j : ℕ) : coreAcc g j = ∑ s ∈ Finset.range (j + 1), g s := by
  induction j with
  | zero =>
    show 0 + g 0 = ∑ s ∈ Finset.range (0 + 1), g s
    rw [zero_add, Finset.sum_range_succ, Finset.sum_range_zero, zero_add]
  | succ j ih =>
    show coreAcc g j + g (j + 1) = ∑ s ∈ Finset.range (j + 1 + 1), g s
    rw [ih, Finset.sum_range_succ g (j + 1)]

/-- Tile `T` (fifty tiles, 0 ≤ T < 50; for T ≤ 48 the staged tiles hold block `T` of the arrays wherever that block
    lies inside them, and tile 49 lies wholly past the arrays) adds the plain sum of its 4096 terms, whatever the staged
    tiles hold where they overhang the arrays. -/
theorem tileSum_eq_terms (wt wg : Fin 256 → Fin 256 → EReal) (bt bg : Fin 256 → EReal)
    (mk : Fin 256 → Fin 200000 → EReal) (row : Fin 200000 → Fin 256 → EReal) (T : ℕ) (hT : T < 50)
    (mkT : Fin 256 → Fin 4096 → EReal) (rowT : Fin 4096 → Fin 256 → EReal)
    (hmk : T ≤ 48 → ∀ (b : Fin 256) (r : Fin 4096) (h : 4096 * T + r.val < 200000), mkT b r = mk b ⟨4096 * T + r.val, h⟩)
    (hrow : T ≤ 48 → ∀ (r : Fin 4096) (h : 4096 * T + r.val < 200000), rowT r = row ⟨4096 * T + r.val, h⟩)
    (b d : Fin 256) :
    tileSum wt wg bt bg T mkT rowT b d = ∑ r : Fin 4096, term wt wg bt bg mk row b d (4096 * T + r.val) := by
  unfold tileSum
  refine Finset.sum_congr rfl fun r _ => ?_
  have hr : r.val < 4096 := r.isLt
  by_cases hlt : 4096 * T + r.val < 200000
  · -- a real node: the tile is one of the first 49 and both keep factors are one
    have hT48 : T ≤ 48 := by omega
    have hk : keep (validOf T) r.val = 1 := by
      unfold keep validOf
      exact if_pos (by omega)
    rw [hk, mul_one, mul_one, hmk hT48 b r hlt, hrow hT48 r hlt]
    unfold term
    rw [dif_pos hlt]
  · -- past the last node: both keep factors are zero, and so is the term
    have hk : keep (validOf T) r.val = 0 := by
      unfold keep validOf
      exact if_neg (by omega)
    rw [hk, mul_zero, mul_zero, mul_zero]
    unfold term
    rw [dif_neg hlt]

/-- Fifty runs of 4096 consecutive naturals cover the naturals below 204800; a function that vanishes from 200000 on
    sums over them to its sum over the naturals below 200000. -/
theorem sum_tiles_eq (f : ℕ → EReal) (hz : ∀ n, 200000 ≤ n → f n = 0) :
    ∑ s ∈ Finset.range 50, ∑ r : Fin 4096, f (4096 * s + r.val) = ∑ n : Fin 200000, f n.val := by
  rw [Cert.LibBitSums.sum_runs 50 4096 f, Fin.sum_univ_eq_sum_range f (50 * 4096)]
  rw [show 50 * 4096 = 200000 + 4800 from by norm_num, Finset.sum_range_add f 200000 4800]
  rw [Finset.sum_eq_zero (fun x _ => hz _ (Nat.le_add_right _ _)), add_zero]
  exact (Fin.sum_univ_eq_sum_range f 200000).symm

/-- The two cores' totals, tiles 0..24 and 25..49, add up to the owner sum. -/
theorem cores_eq_ownerSum (wt wg : Fin 256 → Fin 256 → EReal) (bt bg : Fin 256 → EReal)
    (mk : Fin 256 → Fin 200000 → EReal) (row : Fin 200000 → Fin 256 → EReal) (b d : Fin 256) :
    coreAcc (fun j => ∑ r : Fin 4096, term wt wg bt bg mk row b d (4096 * j + r.val)) 24
      + coreAcc (fun j => ∑ r : Fin 4096, term wt wg bt bg mk row b d (4096 * (25 + j) + r.val)) 24
      = ownerSum wt wg bt bg mk row b d := by
  rw [coreAcc_eq_sum, coreAcc_eq_sum]
  -- the second core's 25 tiles are tiles 25..49: the two ranges join into the fifty tiles
  have h := Finset.sum_range_add
    (fun s => ∑ r : Fin 4096, term wt wg bt bg mk row b d (4096 * s + r.val)) 25 25
  refine h.symm.trans ?_
  refine (sum_tiles_eq (term wt wg bt bg mk row b d) ?_).trans ?_
  · intro n hn
    unfold term
    exact dif_neg (by omega)
  · unfold ownerSum
    refine Finset.sum_congr rfl fun n _ => ?_
    unfold term
    rw [dif_pos n.isLt]

end Cert.OwnerSum

end
-- ==== Proof.TileEntry.lean ====
/-
  The body's arithmetic at one grid point, read at an entry at the extended reals. The tile at grid point (a, n) is
  number T = 25·a + n; the body computes the word 200000 − 4096·T (no wrap for the fifty tiles), compares each
  position's number with it as signed integers and turns the bit into 0 or 1: the keep factor. A row of the gated
  tile is the gated feature row of the staged features times the keep factor of the row; the accumulator gains the
  matrix product of the kept mask tile with the gated tile: the tile's masked sum.
-/
import proofs.«114824_j76501957477036_2_alg».proof.Proof.Gen.KernelIdeal.Skeleton
import proofs.«114824_j76501957477036_2_alg».proof.Proof.LibDenseRows
import proofs.«114824_j76501957477036_2_alg».proof.Proof.LibBitSums
import proofs.«114824_j76501957477036_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost

noncomputable section

namespace Cert.KernelIdeal.Hand

open Cert.KernelIdeal Cert.KernelIdeal.Gen Idealize.ShloMosaic Idealize.ShloMosaic.ValueIdx
open Idealize.ShloMosaic.DenseRows Cert.OwnerSum
open scoped BigOperators

/-! ## The count of real positions as a word -/

/-- The word the body computes at grid point (a, n): 200000 − (25·a + n)·4096 in 32-bit arithmetic. -/
def validWord (a n : ℕ) : BitVec 32 :=
  Scalar.subi 200000#32 (Scalar.muli (Scalar.addi (Scalar.muli (BitVec.ofNat 32 a) 25#32) (BitVec.ofNat 32 n)) 4096#32)

/-- Read as a signed integer it is the number of real positions of tile 25·a + n: nothing wraps on the fifty points. -/
theorem validWord_toInt : ∀ (a : Fin 2) (n : Fin 25), (validWord a.val n.val).toInt = validOf (a.val * 25 + n.val) := by
  unfold validOf
  decide +kernel

/-! ## The keep factor from the comparison's bit -/

/-- A position number below 4096 as a 32-bit word reads back as itself. -/
theorem toInt_ofNat_small (r : ℕ) (hr : r < 4096) : (BitVec.ofNat 32 r).toInt = (r : ℤ) := by
  rw [BitVec.toInt_eq_toNat_cond, BitVec.toNat_ofNat]
  omega

/-- The bit of "position r is below the word w, as signed integers", widened and converted, is the keep factor. -/
theorem keep_bit (r : ℕ) (hr : r < 4096) (w : BitVec 32) :
    FloatOps.sitofp (F := Ideal) .f32 ((IntOp.cmpi .slt (BitVec.ofNat 32 r) w).setWidth 32) = keep w.toInt r := by
  show (((((BitVec.ofBool ((BitVec.ofNat 32 r).slt w)).setWidth 32).toInt : ℤ) : ℝ) : EReal) = keep w.toInt r
  rw [Cert.LibBitSums.bit_toInt, BitVec.slt, toInt_ofNat_small r hr]
  unfold keep
  by_cases h : (r : ℤ) < w.toInt
  · rw [if_pos h, decide_eq_true h]; simp
  · rw [if_neg h, decide_eq_false h]; simp

/-! ## The two keep masks at an index -/

/-- The row keep column [4096, 1]: position r's factor, from the row number compared with the word w. -/
theorem rowKeep_apply (w : BitVec 32) (r : Fin 4096) :
    (sitofp .f32 (extui 32 (cmpi .slt (iota .tc S4096x1 32 [0] iota_S4096x1_d0_w32) (broadcast S4096x1 w)) natLt_1_32)
        : FVec Ideal S4096x1 .f32) (ix2 r (0 : Fin 1)) = keep w.toInt r.val := by
  show FloatOps.sitofp (F := Ideal) .f32
      ((IntOp.cmpi .slt (iota .tc S4096x1 32 [0] iota_S4096x1_d0_w32 (ix2 r (0 : Fin 1))) w).setWidth 32) = _
  rw [iota_single_apply]
  exact keep_bit r.val r.isLt w

/-- The column keep [256, 4096]: position r's factor in every row, from the column number compared with the word w. -/
theorem colKeep_apply (w : BitVec 32) (b : Fin 256) (r : Fin 4096) :
    (sitofp .f32 (extui 32 (cmpi .slt (iota .tc S256x4096 32 [1] iota_S256x4096_d1_w32) (broadcast S256x4096 w)) natLt_1_32)
        : FVec Ideal S256x4096 .f32) (ix2 b r) = keep w.toInt r.val := by
  show FloatOps.sitofp (F := Ideal) .f32
      ((IntOp.cmpi .slt (iota .tc S256x4096 32 [1] iota_S256x4096_d1_w32 (ix2 b r)) w).setWidth 32) = _
  rw [iota_single_apply]
  exact keep_bit r.val r.isLt w

/-- An [a, 1] column broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The three payloads at an entry -/

/-- The reset value is zero everywhere. -/
theorem zero_pay (j : S256x256.Idx) : k0_pay3 (F := Ideal) j = 0 := by
  show shapeCast S256x256 (broadcast S256x256 (Scalar.ofBits (F := Ideal) .f32 0x00000000#32)) shapeCasts_S256x256_S256x256 j = 0
  rw [shapeCast_self]
  show Ideal.ofBits .f32 0x00000000#32 = 0
  exact Ideal.ofBits_zero_f32

/-- The result's block is the accumulator with a leading unit axis. -/
theorem out_pay (v : Vec Ideal S256x256 .f32) (b d : Fin 256) : k0_pay2 (F := Ideal) v (ix3 (0 : Fin 1) b d) = v (ix2 b d) := by
  show shapeCast S1x256x256 v shapeCasts_S256x256_S1x256x256 (ix3 (0 : Fin 1) b d) = v (ix2 b d)
  exact shapeCast_ab_1ab_apply v shapeCasts_S256x256_S1x256x256 (0 : Fin 1) b d

/-- The column keep payload at an entry is the keep factor of the tile's position. -/
theorem pay5_apply (i : grid0.Coords) (b : Fin 256) (r : Fin 4096) :
    k0_pay5 (F := Ideal) i (ix2 b r) = keep (validOf ((i 0).val * 25 + (i 1).val)) r.val := by
  have hk := colKeep_apply (validWord (i 0).val (i 1).val) b r
  rw [validWord_toInt (i 0) (i 1)] at hk
  exact hk

/-- The gated tile at an entry: the gated features of the staged row, times the row's keep factor. -/
theorem pay4_apply (i : grid0.Coords) (x0 : Vec Ideal S4096x256 .f32) (w1 : Vec Ideal S256x256 .bf16) (w2 : Vec Ideal S256x256 .bf16)
    (b1 : Vec Ideal S1x256 .f32) (b2 : Vec Ideal S1x256 .f32) (r : Fin 4096) (d : Fin 256) :
    k0_pay4 (F := Ideal) i x0 w1 w2 b1 b2 (ix2 r d)
      = gated (entries w1) (entries w2) (rowEntries b1) (rowEntries b2) (entries x0 r) d
          * keep (validOf ((i 0).val * 25 + (i 1).val)) r.val := by
  have hk := rowKeep_apply (validWord (i 0).val (i 1).val) r
  rw [validWord_toInt (i 0) (i 1)] at hk
  have hA := kernelAffine_apply dot_S4096x256_S256x256_S4096x256_1_0_0_1_n_n rfl x0 bitsLt_bf16_f32 w1
    shapeCasts_S256x256_S256x256 b1 shapeCasts_S1x256_S1x256 broadcasts_S1x256_S4096x256 r d
  have hL := kernelLogistic_apply dot_S4096x256_S256x256_S4096x256_1_0_0_1_n_n rfl x0 bitsLt_bf16_f32 w2
    shapeCasts_S256x256_S256x256 b2 shapeCasts_S1x256_S1x256 broadcasts_S1x256_S4096x256 r d
  unfold gated
  rw [← hA, ← hL, ← hk]
  refine Eq.trans ?_ (congrArg _ (broadcastTo_a1_ab_apply _ broadcasts_S4096x1_S4096x256 r d))
  rfl

/-- One grid point adds to the accumulator the tile's masked sum. -/
theorem tile_update (i : grid0.Coords) (x0 : Vec Ideal S4096x256 .f32) (x1 : Vec Ideal S256x4096 .i32)
    (w1 : Vec Ideal S256x256 .bf16) (b1 : Vec Ideal S1x256 .f32) (w2 : Vec Ideal S256x256 .bf16) (b2 : Vec Ideal S1x256 .f32)
    (acc : Vec Ideal S256x256 .f32) (b d : Fin 256) :
    k0_pay1 (F := Ideal) (k0_pay4 i x0 w1 w2 b1 b2) (k0_pay5 i) x1 acc (ix2 b d)
      = acc (ix2 b d) + Cert.OwnerSum.tileSum (fun k q => w1 (ix2 k q)) (fun k q => w2 (ix2 k q)) (fun q => b1 (ix2 (0 : Fin 1) q)) (fun q => b2 (ix2 (0 : Fin 1) q))
          ((i 0).val * 25 + (i 1).val) (fun b r => (((x1 (ix2 b r)).toInt : ℝ) : EReal)) (fun r k => x0 (ix2 r k)) b d := by
  show shapeCast S256x256 (addf acc (matmul dot_S256x4096_S4096x256_S256x256_1_0_0_1_n_n none
      (mulf (sitofp .bf16 x1) (k0_pay5 i)) (k0_pay4 i x0 w1 w2 b1 b2) (constant S256x256 .f32 0x00000000#32)))
      shapeCasts_S256x256_S256x256 (ix2 b d) = _
  rw [shapeCast_self]
  show acc (ix2 b d) + FloatOps.matmul dot_S256x4096_S4096x256_S256x256_1_0_0_1_n_n none
      (mulf (sitofp .bf16 x1) (k0_pay5 i)) (k0_pay4 i x0 w1 w2 b1 b2) (constant S256x256 .f32 0x00000000#32) (ix2 b d) = _
  rw [matmul_plain_zero_apply dot_S256x4096_S4096x256_S256x256_1_0_0_1_n_n rfl]
  unfold tileSum
  refine congrArg (fun z => acc (ix2 b d) + z) (Finset.sum_congr rfl fun r _ => ?_)
  rw [pay4_apply, mulf_apply, pay5_apply]
  rfl

end Cert.KernelIdeal.Hand

end
-- ==== Proof.ValueStep.lean ====
/-
  One grid point's arithmetic. Point t of the fifty is tile t: its block of the two tiled arrays starts at node 4096·t
  (for t ≤ 48; the fiftieth point, t = 49, re-reads block 48 and keeps nothing of it). Where a staged tile lies inside
  its array the buffer holds the array's entries, so by the payload read at an entry and the tile algebra the step adds
  to the accumulator exactly the plain sum of tile t's terms — at the fiftieth point that sum is zero, every keep
  factor being zero, whatever the buffers hold. Hence the accumulator's named contents advance as the core's
  left-to-right accumulation does: from zero on a core's first tile, from the previous tile's contents otherwise.
-/
import proofs.«114824_j76501957477036_2_alg».proof.Proof.ValueData
import proofs.«114824_j76501957477036_2_alg».proof.Proof.TileAlgebra
import proofs.«114824_j76501957477036_2_alg».proof.Proof.TileEntry

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx Cert.OwnerSum
open scoped BigOperators

variable (m : (ℓ : Loc nD τ sig) → Buf (Elt Ideal) ℓ)

/-! ## The schedule's numbers, decided over the fifty points -/

/-- Point t has core t / 25 and tile number t % 25, so core · 25 + tile = t. -/
theorem tile_of_point : ∀ t : Fin cfg0.N, ((grid0.coords t) 0).val * 25 + ((grid0.coords t) 1).val = t.val :=
  (by decide +kernel : ∀ t : Fin grid0.N, ((grid0.coords t) 0).val * 25 + ((grid0.coords t) 1).val = t.val)

/-- Through point 48 the feature window's block index is (t, 0) and the mask window's (0, t). -/
theorem index_tiles : ∀ t : Fin cfg0.N, t.val ≤ 48 →
    (win0_0.index t 0 = t.val ∧ win0_0.index t 1 = 0) ∧ (win0_1.index t 0 = 0 ∧ win0_1.index t 1 = t.val) :=
  (by decide +kernel : ∀ t : Fin grid0.N, t.val ≤ 48 →
    (win0_0.index t 0 = t.val ∧ win0_0.index t 1 = 0) ∧ (win0_1.index t 0 = 0 ∧ win0_1.index t 1 = t.val))

/-- The part of the block a fetch moves: all 4096 positions, or what is left of the 200000 nodes. -/
theorem xsize_tiles : ∀ t : Fin cfg0.N, t.val ≤ 48 →
    (win0_0.xsize (grid0.coords t) 0 = min 4096 (200000 - 4096 * t.val) ∧ win0_0.xsize (grid0.coords t) 1 = 256)
    ∧ (win0_1.xsize (grid0.coords t) 0 = 256 ∧ win0_1.xsize (grid0.coords t) 1 = min 4096 (200000 - 4096 * t.val)) :=
  (by decide +kernel : ∀ t : Fin grid0.N, t.val ≤ 48 →
    (win0_0.xsize (grid0.coords t) 0 = min 4096 (200000 - 4096 * t.val) ∧ win0_0.xsize (grid0.coords t) 1 = 256)
    ∧ (win0_1.xsize (grid0.coords t) 0 = 256 ∧ win0_1.xsize (grid0.coords t) 1 = min 4096 (200000 - 4096 * t.val)))

/-- The whole-array windows' block index is (0, 0) at every point. -/
theorem index_whole : ∀ t : Fin cfg0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) :=
  (by decide +kernel : ∀ t : Fin grid0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0))

/-! ## The staged tiles inside their arrays -/

/-- Position r of the feature tile at point t ≤ 48, when node 4096·t + r exists, holds that node's features. -/
theorem tile0_entry (c : Dev nD) (t : Fin cfg0.N) (ht : t.val ≤ 48)
    (d0 : (cfg0.win 0).block.Idx → Elt Ideal (cfg0.win 0).elt) (r : Fin 4096) (k : Fin 256)
    (h : 4096 * t.val + r.val < 200000) :
    win0_0.fill (grid0.coords t) d0 (iblk m c 0 t) (ix2 r k)
      = (V m c main_arg0 : S200000x256.Idx → EReal) (ix2 ⟨4096 * t.val + r.val, h⟩ k) := by
  have hx := (xsize_tiles t ht).1
  have hi := (index_tiles t ht).1
  have hmv : win0_0.moved (grid0.coords t) (ix2 r k) = true := (win0_0.moved_iff _ _).mpr (fun a => by
    match a with
    | ⟨0, _⟩ => show r.val < win0_0.xsize (grid0.coords t) 0; rw [hx.1]; have := r.isLt; omega
    | ⟨1, _⟩ => show k.val < win0_0.xsize (grid0.coords t) 1; rw [hx.2]; exact k.isLt)
  unfold Pipeline.Window.fill
  rw [dif_pos hmv]
  unfold iblk
  show (V m c main_arg0 : S200000x256.Idx → EReal) (((cfg0.win 0).blk t).view.emb _) = _
  refine congrArg (V m c main_arg0 : S200000x256.Idx → EReal) ?_
  funext a; apply Fin.ext
  match a with
  | ⟨0, _⟩ => show win0_0.index t 0 * 4096 + 1 * r.val = 4096 * t.val + r.val; rw [hi.1]; omega
  | ⟨1, _⟩ => show win0_0.index t 1 * 256 + 1 * k.val = k.val; rw [hi.2]; omega

/-- Position r of the mask tile at point t ≤ 48, when node 4096·t + r exists, holds that node's mask column. -/
theorem tile1_entry (c : Dev nD) (t : Fin cfg0.N) (ht : t.val ≤ 48)
    (d1 : (cfg0.win 1).block.Idx → Elt Ideal (cfg0.win 1).elt) (b : Fin 256) (r : Fin 4096)
    (h : 4096 * t.val + r.val < 200000) :
    win0_1.fill (grid0.coords t) d1 (iblk m c 1 t) (ix2 b r)
      = (V m c main_arg1 : S256x200000.Idx → BitVec 32) (ix2 b ⟨4096 * t.val + r.val, h⟩) := by
  have hx := (xsize_tiles t ht).2
  have hi := (index_tiles t ht).2
  have hmv : win0_1.moved (grid0.coords t) (ix2 b r) = true := (win0_1.moved_iff _ _).mpr (fun a => by
    match a with
    | ⟨0, _⟩ => show b.val < win0_1.xsize (grid0.coords t) 0; rw [hx.1]; exact b.isLt
    | ⟨1, _⟩ => show r.val < win0_1.xsize (grid0.coords t) 1; rw [hx.2]; have := r.isLt; omega)
  unfold Pipeline.Window.fill
  rw [dif_pos hmv]
  unfold iblk
  show (V m c main_arg1 : S256x200000.Idx → BitVec 32) (((cfg0.win 1).blk t).view.emb _) = _
  refine congrArg (V m c main_arg1 : S256x200000.Idx → BitVec 32) ?_
  funext a; apply Fin.ext
  match a with
  | ⟨0, _⟩ => show win0_1.index t 0 * 256 + 1 * b.val = b.val; rw [hi.1]; omega
  | ⟨1, _⟩ => show win0_1.index t 1 * 4096 + 1 * r.val = 4096 * t.val + r.val; rw [hi.2]; omega

/-! ## The whole-array windows -/

theorem iblk_2 (c : Dev nD) (t : Fin cfg0.N) (k q : Fin 256) : iblk m c 2 t (ix2 k q) = wtE m c k q := by
  have hi := (index_whole t).1
  unfold iblk wtE
  show (V m c main_v1 : S256x256.Idx → EReal) (((cfg0.win 2).blk t).view.emb _) = _
  refine congrArg (V m c main_v1 : S256x256.Idx → EReal) ?_
  funext a; apply Fin.ext
  match a with
  | ⟨0, _⟩ => show win0_2.index t 0 * 256 + 1 * k.val = k.val; rw [hi.1]; omega
  | ⟨1, _⟩ => show win0_2.index t 1 * 256 + 1 * q.val = q.val; rw [hi.2]; omega
theorem iblk_4 (c : Dev nD) (t : Fin cfg0.N) (k q : Fin 256) : iblk m c 4 t (ix2 k q) = wgE m c k q := by
  have hi := (index_whole t).2.2.1
  unfold iblk wgE
  show (V m c main_v3 : S256x256.Idx → EReal) (((cfg0.win 4).blk t).view.emb _) = _
  refine congrArg (V m c main_v3 : S256x256.Idx → EReal) ?_
  funext a; apply Fin.ext
  match a with
  | ⟨0, _⟩ => show win0_4.index t 0 * 256 + 1 * k.val = k.val; rw [hi.1]; omega
  | ⟨1, _⟩ => show win0_4.index t 1 * 256 + 1 * q.val = q.val; rw [hi.2]; omega
theorem iblk_3 (c : Dev nD) (t : Fin cfg0.N) (q : Fin 256) : iblk m c 3 t (ix2 (0 : Fin 1) q) = btE m c q := by
  have hi := (index_whole t).2.1
  unfold iblk btE
  show (V m c main_v4 : S1x256.Idx → EReal) (((cfg0.win 3).blk t).view.emb _) = _
  refine congrArg (V m c main_v4 : S1x256.Idx → EReal) ?_
  funext a; apply Fin.ext
  match a with
  | ⟨0, _⟩ => show win0_3.index t 0 * 1 + 1 * 0 = 0; rw [hi.1]
  | ⟨1, _⟩ => show win0_3.index t 1 * 256 + 1 * q.val = q.val; rw [hi.2]; omega
theorem iblk_5 (c : Dev nD) (t : Fin cfg0.N) (q : Fin 256) : iblk m c 5 t (ix2 (0 : Fin 1) q) = bgE m c q := by
  have hi := (index_whole t).2.2.2
  unfold iblk bgE
  show (V m c main_v5 : S1x256.Idx → EReal) (((cfg0.win 5).blk t).view.emb _) = _
  refine congrArg (V m c main_v5 : S1x256.Idx → EReal) ?_
  funext a; apply Fin.ext
  match a with
  | ⟨0, _⟩ => show win0_5.index t 0 * 1 + 1 * 0 = 0; rw [hi.1]
  | ⟨1, _⟩ => show win0_5.index t 1 * 256 + 1 * q.val = q.val; rw [hi.2]; omega

/-! ## The step -/

/-- One step adds tile t's plain sum of terms, whatever the tiled buffers hold past the arrays' end (and, at the
    fiftieth point, whatever they hold at all). -/
theorem step_entry (c : Dev nD) (t : Fin cfg0.N)
    (Y0 : (cfg0.win 0).block.Idx → Elt Ideal (cfg0.win 0).elt) (Y1 : (cfg0.win 1).block.Idx → Elt Ideal (cfg0.win 1).elt)
    (hY0 : t.val ≤ 48 → ∃ d, Y0 = win0_0.fill (grid0.coords t) d (iblk m c 0 t))
    (hY1 : t.val ≤ 48 → ∃ d, Y1 = win0_1.fill (grid0.coords t) d (iblk m c 1 t))
    (acc : Vec Ideal S256x256 .f32) (b d : Fin 256) :
    step (F := Ideal) (grid0.coords t) Y0 Y1 (iblk m c 2 t) (iblk m c 3 t) (iblk m c 4 t) (iblk m c 5 t) acc (ix2 b d)
      = acc (ix2 b d) + tileTerms m c t.val b d := by
  unfold step
  rw [tile_update, tile_of_point t]
  have e2 : (fun k q => iblk m c 2 t (ix2 k q)) = wtE m c := funext fun k => funext fun q => iblk_2 m c t k q
  have e4 : (fun k q => iblk m c 4 t (ix2 k q)) = wgE m c := funext fun k => funext fun q => iblk_4 m c t k q
  have e3 : (fun q => iblk m c 3 t (ix2 (0 : Fin 1) q)) = btE m c := funext fun q => iblk_3 m c t q
  have e5 : (fun q => iblk m c 5 t (ix2 (0 : Fin 1) q)) = bgE m c := funext fun q => iblk_5 m c t q
  rw [e2, e4, e3, e5]
  refine congrArg (acc (ix2 b d) + ·) ?_
  refine tileSum_eq_terms (wtE m c) (wgE m c) (btE m c) (bgE m c) (mkE m c) (rowE m c) t.val
    (lt_of_lt_of_eq t.isLt N_0) _ _ ?_ ?_ b d
  · intro ht b' r h
    obtain ⟨d1, rfl⟩ := hY1 ht
    show ((((win0_1.fill (grid0.coords t) d1 (iblk m c 1 t) (ix2 b' r) : BitVec 32)).toInt : ℝ) : EReal) = _
    rw [tile1_entry m c t ht d1 b' r h]; rfl
  · intro ht r h
    obtain ⟨d0, rfl⟩ := hY0 ht
    funext k
    exact tile0_entry m c t ht d0 r k h

/-- On a core's first tile, from zeros, the accumulator reaches its named contents. -/
theorem acc_first (c : Dev nD) (t : Fin cfg0.N) (h0 : t.val % 25 = 0)
    (Y0 : (cfg0.win 0).block.Idx → Elt Ideal (cfg0.win 0).elt) (Y1 : (cfg0.win 1).block.Idx → Elt Ideal (cfg0.win 1).elt)
    (hY0 : t.val ≤ 48 → ∃ d, Y0 = win0_0.fill (grid0.coords t) d (iblk m c 0 t))
    (hY1 : t.val ≤ 48 → ∃ d, Y1 = win0_1.fill (grid0.coords t) d (iblk m c 1 t)) :
    step (F := Ideal) (grid0.coords t) Y0 Y1 (iblk m c 2 t) (iblk m c 3 t) (iblk m c 4 t) (iblk m c 5 t) (k0_pay3 (F := Ideal))
      = accSpec m c (t.val / 25) (t.val % 25) := by
  funext ix
  obtain ⟨b, d, rfl⟩ : ∃ (b d : Fin 256), ix = ix2 b d := ⟨ix 0, ix 1, eq_ix2 ix⟩
  rw [step_entry m c t Y0 Y1 hY0 hY1, zero_pay, h0]
  show (0 : EReal) + tileTerms m c t.val b d = 0 + tileTerms m c (25 * (t.val / 25) + 0) b d
  rw [show 25 * (t.val / 25) + 0 = t.val by omega]

/-- On any later tile, from the previous tile's named contents, it reaches this tile's. -/
theorem acc_next (c : Dev nD) (t : Fin cfg0.N) (h0 : t.val % 25 ≠ 0)
    (Y0 : (cfg0.win 0).block.Idx → Elt Ideal (cfg0.win 0).elt) (Y1 : (cfg0.win 1).block.Idx → Elt Ideal (cfg0.win 1).elt)
    (hY0 : t.val ≤ 48 → ∃ d, Y0 = win0_0.fill (grid0.coords t) d (iblk m c 0 t))
    (hY1 : t.val ≤ 48 → ∃ d, Y1 = win0_1.fill (grid0.coords t) d (iblk m c 1 t)) :
    step (F := Ideal) (grid0.coords t) Y0 Y1 (iblk m c 2 t) (iblk m c 3 t) (iblk m c 4 t) (iblk m c 5 t)
        (accSpec m c ((t.val - 1) / 25) ((t.val - 1) % 25))
      = accSpec m c (t.val / 25) (t.val % 25) := by
  obtain ⟨j, hj⟩ : ∃ j, t.val % 25 = j + 1 := ⟨t.val % 25 - 1, by omega⟩
  have e1 : (t.val - 1) / 25 = t.val / 25 := by omega
  have e2 : (t.val - 1) % 25 = j := by omega
  funext ix
  obtain ⟨b, d, rfl⟩ : ∃ (b d : Fin 256), ix = ix2 b d := ⟨ix 0, ix 1, eq_ix2 ix⟩
  rw [step_entry m c t Y0 Y1 hY0 hY1, e1, e2, hj]
  show coreAcc (fun j' => tileTerms m c (25 * (t.val / 25) + j') b d) j + tileTerms m c t.val b d
    = coreAcc (fun j' => tileTerms m c (25 * (t.val / 25) + j') b d) j
      + tileTerms m c (25 * (t.val / 25) + (j + 1)) b d
  rw [show 25 * (t.val / 25) + (j + 1) = t.val by omega]

end Cert.KernelIdeal.Hand

end
-- ==== Proof.ValueBody.lean ====
/-
  The body obligation of the value run. At point t the body is handed the seven staging buffers at what they then
  hold — the two tiles at the arrays' blocks inside the arrays and anything past their end, the weights and biases at
  the arrays, the result's buffer at anything — and the accumulator at the previous point's named contents (at
  anything before a core's first tile, which overwrites it). The run for the point's tile number applies; by the step's
  arithmetic the accumulator ends at this point's named contents. The inputs are left as found; the result's buffer is
  left as found except on a core's last tile, where it takes the accumulator under a unit axis.
-/
import proofs.«114824_j76501957477036_2_alg».proof.Proof.ValueStep

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx Cert.OwnerSum
open Idealize.ShloMosaic.Pipeline (BodyObligationLoose)

local notation "𝕄" => MT nD τ sig Unit (Elt Ideal) ℕ (UR sig nD τ) ℕ

variable (m : (ℓ : Loc nD τ sig) → Buf (Elt Ideal) ℓ)

/-- The result's window is written back exactly on a core's last tile, and is idle at every other point. -/
theorem flush_6_iff (t : Fin cfg0.N) : (cfg0.win 6).flush t = true ↔ lastTile (grid0.coords t) :=
  (flush0_6 t).trans (lastTile_iff t).symm
theorem idle_6_of_not_last (t : Fin cfg0.N) (h2 : ¬ lastTile (grid0.coords t)) : cfg0.idle 6 (grid0.coords t) = true := by
  show (!(k0_cond2 (grid0.coords t) == 1#1)) = true
  rw [Bool.not_eq_true', beq_eq_false_iff_ne]; exact h2
theorem idle_6_of_last (t : Fin cfg0.N) (h2 : lastTile (grid0.coords t)) : cfg0.idle 6 (grid0.coords t) = false := by
  show (!(k0_cond2 (grid0.coords t) == 1#1)) = false
  rw [Bool.not_eq_false', beq_iff_eq]; exact h2
theorem noflush_6_of_not_last (t : Fin cfg0.N) (h2 : ¬ lastTile (grid0.coords t)) : (cfg0.win 6).flush t = false := by
  cases hf : (cfg0.win 6).flush t with
  | false => rfl
  | true => exact absurd ((flush_6_iff t).mp hf) h2

/-- Off a last tile the result's buffer is handed back as found. -/
theorem leaves_6_idle (c : Dev nD) (t : Fin cfg0.N) (h2 : ¬ lastTile (grid0.coords t)) :
    (valDats m 0 c).leaves 6 t = iprop(∃ d, owns (c : Thread nD τ) (st0_6 t) fullShare ((valDats m 0 c).before 6 t d)) :=
  (valDats m 0 c).leaves_idle 6 t (idle_6_of_not_last t h2) (noflush_6_of_not_last t h2)

/-- On a last tile it is handed back at the accumulator under a unit axis. -/
theorem leaves_6_last (c : Dev nD) (t : Fin cfg0.N) (h2 : lastTile (grid0.coords t)) :
    (valDats m 0 c).leaves 6 t
      = owns (c : Thread nD τ) (st0_6 t) fullShare (k0_pay2 (F := Ideal) (accSpec m c (t.val / 25) (t.val % 25))) := by
  unfold Dat.leaves
  rw [idle_6_of_last t h2]
  try rw [after_6]

/-- Before any point the invariant holds the accumulator at something. -/
theorem PhiV_some (c : Dev nD) (n : ℕ) : PhiV m c n
    ⊢ iprop(iprop((∃ d, owns (c : Thread nD τ) (Memref.whole cc0_scratch0) fullShare d)) ∗ (∃ r, prngReg c r)) := by
  cases n with
  | zero => rw [PhiV_zero, accHeld_eq]
  | succ n =>
    rw [PhiV_succ]
    iintro ⟨HS, Hg⟩
    isplitl [HS]; · iexists _; iexact HS
    iexact Hg

/-- Before a point that is not the first, the invariant holds the previous point's named contents. -/
theorem PhiV_prev (c : Dev nD) (n : ℕ) (hn : n ≠ 0) : PhiV m c n
    = iprop(iprop(owns (c : Thread nD τ) (Memref.whole cc0_scratch0) fullShare (accSpec m c ((n - 1) / 25) ((n - 1) % 25)))
      ∗ (∃ r, prngReg c r)) := by
  cases n with
  | zero => exact absurd rfl hn
  | succ n => rfl

set_option maxHeartbeats 1600000 in
/-- The body at point t. -/
theorem value_body (c : Dev nD) (t : Fin cfg0.N) :
    iprop(PhiV m c t.val ∗ (valDats m 0 c).owesAt () t.castSucc
      ∗ (∃ d, owns (c : Thread nD τ) (st0_0 t) fullShare ((valDats m 0 c).before 0 t d))
      ∗ (∃ d, owns (c : Thread nD τ) (st0_1 t) fullShare ((valDats m 0 c).before 1 t d))
      ∗ (∃ d, owns (c : Thread nD τ) (st0_2 t) fullShare ((valDats m 0 c).before 2 t d))
      ∗ (∃ d, owns (c : Thread nD τ) (st0_3 t) fullShare ((valDats m 0 c).before 3 t d))
      ∗ (∃ d, owns (c : Thread nD τ) (st0_4 t) fullShare ((valDats m 0 c).before 4 t d))
      ∗ (∃ d, owns (c : Thread nD τ) (st0_5 t) fullShare ((valDats m 0 c).before 5 t d))
      ∗ (∃ d, owns (c : Thread nD τ) (st0_6 t) fullShare ((valDats m 0 c).before 6 t d)))
    ⊢ wp frame (wpE (defs₀ (F := Ideal)) Variants.none c none) Set.univ (bodyAt0 t) (fun _ =>
      iprop(PhiV m c (t.val + 1) ∗ (valDats m 0 c).owesAt () t.succ
      ∗ (∃ d, owns (c : Thread nD τ) (st0_0 t) fullShare ((cfg0.win 0).fill (cfg0.grid.coords t) d ((cfg0.win 0).cut (cfg0.grid.coords t) ((valDats m 0 c).after 0 t))))
      ∗ (∃ d, owns (c : Thread nD τ) (st0_1 t) fullShare ((cfg0.win 1).fill (cfg0.grid.coords t) d ((cfg0.win 1).cut (cfg0.grid.coords t) ((valDats m 0 c).after 1 t))))
      ∗ owns (c : Thread nD τ) (st0_2 t) fullShare ((valDats m 0 c).after 2 t)
      ∗ owns (c : Thread nD τ) (st0_3 t) fullShare ((valDats m 0 c).after 3 t)
      ∗ owns (c : Thread nD τ) (st0_4 t) fullShare ((valDats m 0 c).after 4 t)
      ∗ owns (c : Thread nD τ) (st0_5 t) fullShare ((valDats m 0 c).after 5 t)
      ∗ (valDats m 0 c).leaves 6 t)) := by
  rw [cut_after_0 m c t, cut_after_1 m c t]
  unfold bodyAt0
  simp only [before_0, before_1, before_2, before_3, before_4, before_5, after_2, after_3, after_4, after_5]
  rw [show (valDats m 0 c).owesAt () t.succ = (valDats m 0 c).owesAt () t.castSucc from rfl, PhiV_succ]
  by_cases h1 : firstTile (grid0.coords t)
  · have h0 : t.val % 25 = 0 := (firstTile_iff t).mp h1
    have h2 : ¬ lastTile (grid0.coords t) := fun h => by have b := (lastTile_iff t).mp h; omega
    rw [leaves_6_idle m c t h2]
    iintro ⟨HΦ, Ho, ⟨%d0, H0⟩, ⟨%d1, H1⟩, ⟨%d2, H2⟩, ⟨%d3, H3⟩, ⟨%d4, H4⟩, ⟨%d5, H5⟩, ⟨%d6, H6⟩⟩
    rw [← acc_first m c t h0 (win0_0.fill (grid0.coords t) d0 (iblk m c 0 t)) (win0_1.fill (grid0.coords t) d1 (iblk m c 1 t)) (fun _ => ⟨d0, rfl⟩) (fun _ => ⟨d1, rfl⟩)]
    ihave HΦ' := (PhiV_some m c t.val) $$ HΦ
    icases HΦ' with ⟨HS, Hg⟩
    iapply (tile_first c (grid0.coords t) _ _ _ _ _ _ _ _ _ _ _ _ _ _ _ _ h1 h2 (win0_0.fill (grid0.coords t) d0 (iblk m c 0 t)) (win0_1.fill (grid0.coords t) d1 (iblk m c 1 t)) (iblk m c 2 t) (iblk m c 3 t) (iblk m c 4 t) (iblk m c 5 t) ((valDats m 0 c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexists _; iexact H0
    isplitl [H1]; · iexists _; iexact H1
    isplitl [H2]; · iexact H2
    isplitl [H3]; · iexact H3
    isplitl [H4]; · iexact H4
    isplitl [H5]; · iexact H5
    iexists _; iexact H6
  · have h0 : t.val % 25 ≠ 0 := fun h => h1 ((firstTile_iff t).mpr h)
    have hn : t.val ≠ 0 := fun h => h0 (by rw [h])
    rw [PhiV_prev m c t.val hn]
    by_cases h2 : lastTile (grid0.coords t)
    · rw [leaves_6_last m c t h2]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      rw [← acc_next m c t h0 (win0_0.fill (grid0.coords t) d0 (iblk m c 0 t)) (win0_1.fill (grid0.coords t) d1 (iblk m c 1 t)) (fun _ => ⟨d0, rfl⟩) (fun _ => ⟨d1, rfl⟩)]
      iapply (tile_last c (grid0.coords t) _ _ _ _ _ _ _ _ _ _ _ _ _ _ _ _ h1 h2 (win0_0.fill (grid0.coords t) d0 (iblk m c 0 t)) (win0_1.fill (grid0.coords t) d1 (iblk m c 1 t)) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hg]
      · isplitl [HS]; · iexact HS
        iexact Hg
      isplitl [Ho]; · iexact Ho
      isplitl [H0]; · iexists _; iexact H0
      isplitl [H1]; · iexists _; iexact H1
      isplitl [H2]; · iexact H2
      isplitl [H3]; · iexact H3
      isplitl [H4]; · iexact H4
      isplitl [H5]; · iexact H5
      iexact H6
    · rw [leaves_6_idle m c t h2]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      rw [← acc_next m c t h0 (win0_0.fill (grid0.coords t) d0 (iblk m c 0 t)) (win0_1.fill (grid0.coords t) d1 (iblk m c 1 t)) (fun _ => ⟨d0, rfl⟩) (fun _ => ⟨d1, rfl⟩)]
      iapply (tile_middle c (grid0.coords t) _ _ _ _ _ _ _ _ _ _ _ _ _ _ _ _ h1 h2 (win0_0.fill (grid0.coords t) d0 (iblk m c 0 t)) (win0_1.fill (grid0.coords t) d1 (iblk m c 1 t)) (iblk m c 2 t) (iblk m c 3 t) (iblk m c 4 t) (iblk m c 5 t) ((valDats m 0 c).before 6 t d6) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hg]
      · isplitl [HS]; · iexact HS
        iexact Hg
      isplitl [Ho]; · iexact Ho
      isplitl [H0]; · iexists _; iexact H0
      isplitl [H1]; · iexists _; iexact H1
      isplitl [H2]; · iexact H2
      isplitl [H3]; · iexact H3
      isplitl [H4]; · iexact H4
      isplitl [H5]; · iexact H5
      iexists _; iexact H6

/-- The body obligation of the value run's data. -/
theorem value_obligation (c : Dev nD) :
    BodyObligationLoose (valDats m 0 c) (defs₀ (F := Ideal)) Variants.none () Set.univ := fun t => by
  rw [bigSep_W0, bigSep_W0]
  exact value_body m c t

end Cert.KernelIdeal.Hand

end
-- ==== Proof.ValueRun.lean ====
/-
  The value run and what it leaves. With the body obligation in hand the pipeline's run theorem gives every weakly
  fair execution's end: the result's array [2, 256, 256] holds, in block c, core c's accumulator after its last tile —
  the only points that write a block back are the two cores' last tiles, and their two blocks tile the array —, and
  the host lines after the region (the two blocks sliced out, their unit axis dropped, and added) leave in the
  program's result, at owner b and feature d, the sum of the two cores' totals: the owner sum over all nodes.
-/
import proofs.«114824_j76501957477036_2_alg».proof.Proof.ValueBody
import Idealize.ShloMosaic.Lib.Pipeline.Value
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx Cert.OwnerSum
open scoped BigOperators

local notation "𝕄" => MT nD τ sig Unit (Elt Ideal) ℕ (UR sig nD τ) ℕ

variable (m : (ℓ : Loc nD τ sig) → Buf (Elt Ideal) ℓ) (ρ : Dev nD → PrngReg)

/-! ## The run -/

/-- What the launch hands the region is the invariant before the first point. -/
theorem val_in (c : Dev nD) : Pipeline.ΦA spec0 c ⊢ (valDats m 0 c).Φ 0 := by
  rw [show (valDats m 0 c).Φ 0 = PhiV m c 0 from rfl, PhiV_zero]

/-- After the last point the invariant gives the accumulator back at something. -/
theorem val_out (c : Dev nD) : (valDats m 0 c).Φ (Fin.last cfg0.N) ⊢ Pipeline.ΦA spec0 c := by
  rw [accHeld_eq]
  show PhiV m c (Fin.last cfg0.N).val ⊢ _
  exact PhiV_some m c _

set_option backward.isDefEq.respectTransparency.types false in
/-- Every weakly fair execution of @main terminates without a fault, every array of the region at what the library
    computes from the proof data, every other buffer at what the host lines after the region leave in it. -/
theorem value_run : θ_run defs (onTc (τ := τ) (main (F := Ideal))) (s₀ m ρ)
    (Pipeline.FramePost cfgs (valDats m) 0 (Pipeline.afterTail₀ cfgs (valDats m) 0 (V0 m) [hostOps1])) :=
  Pipeline.θ_run_frame_around_track cfgs (valDats m) (0 : Fin 1) launch0 defs₀ Variants.none m ρ main
    (hbody := fun c => value_obligation m c) (hshare := fun c => (valDats m 0 c).share_full fun _ => rfl)
    (howed := fun _ _ => rfl) (V₀ := V0 m) (opss := [hostOps1]) (hsub := sfx_sub) (hfresh := sfx_fresh)
    (hkeep := sfx_keeps) (hmain := hmain m Variants.none) (hA := valA_eq m) (hin := val_in m) (hout := val_out m)

/-! ## The result's array after the run -/

/-- The result window's block index at point t is (t / 25, 0, 0): the core. -/
theorem index_6 : ∀ t : Fin cfg0.N, win0_6.index t 0 = t.val / 25 ∧ win0_6.index t 1 = 0 ∧ win0_6.index t 2 = 0 :=
  (by decide +kernel : ∀ t : Fin grid0.N, win0_6.index t 0 = t.val / 25 ∧ win0_6.index t 1 = 0 ∧ win0_6.index t 2 = 0)

/-- What the result's array ends holding: in block `core`, that core's accumulator after its last tile. -/
def resultArr (c : Dev nD) : S2x256x256.Idx → EReal := fun i =>
  accSpec m c (i 0).val 24 (ix2 (⟨(i 1).val, (i 1).isLt⟩ : Fin 256) (⟨(i 2).val, (i 2).isLt⟩ : Fin 256))

/-- What a core's last tile writes back is its block of `resultArr`. -/
theorem flushed_6 (c : Dev nD) (t : Fin cfg0.N) (hf : (cfg0.win 6).flush t = true) :
    (valDats m 0 c).flushed 6 t = ((cfg0.win 6).blk t).view.read (Elt Ideal) (resultArr m c) := by
  have hl : t.val % 25 = 24 := (flush0_6 t).mp hf
  obtain ⟨i0, i1, i2⟩ := index_6 t
  show (cfg0.win 6).cut (grid0.coords t) ((valDats m 0 c).after 6 t) = _
  rw [after_6]
  funext j
  obtain ⟨u, p, q, rfl⟩ : ∃ (u : Fin 1) (p q : Fin 256), (j : S1x256x256.Idx) = ix3 u p q := ⟨j 0, j 1, j 2, eq_ix3 j⟩
  obtain rfl : u = 0 := Subsingleton.elim _ _
  show k0_pay2 (F := Ideal) (accSpec m c (t.val / 25) (t.val % 25)) (ix3 (0 : Fin 1) p q)
    = resultArr m c (((cfg0.win 6).blk t).view.emb (ix3 (0 : Fin 1) p q))
  rw [out_pay, hl]
  unfold resultArr
  have e0 : ((((cfg0.win 6).blk t).view.emb (ix3 (0 : Fin 1) p q)) 0).val = t.val / 25 := by
    show win0_6.index t 0 * 1 + 1 * 0 = _; rw [i0]; omega
  have e1 : ((((cfg0.win 6).blk t).view.emb (ix3 (0 : Fin 1) p q)) 1).val = p.val := by
    show win0_6.index t 1 * 256 + 1 * p.val = _; rw [i1]; omega
  have e2 : ((((cfg0.win 6).blk t).view.emb (ix3 (0 : Fin 1) p q)) 2).val = q.val := by
    show win0_6.index t 2 * 256 + 1 * q.val = _; rw [i2]; omega
  simp only [e0, e1, e2]

/-- An index of the result's array is in point t's block iff each coordinate is in the block's range on its axis. -/
theorem mem_blk6 (t : Fin cfg0.N) (i : S2x256x256.Idx) :
    i ∈ ((cfg0.win 6).blk t).view.set ↔ ∀ a : Fin 3, win0_6.index t a * S1x256x256.size a ≤ (i a).val
      ∧ (i a).val < win0_6.index t a * S1x256x256.size a + S1x256x256.size a := by
  show i ∈ ((View.whole main_v6).slice (win0_6.rect t)).set ↔ _
  rw [View.set_slice_whole, Rect.mem_set_unit]
  exact Iff.rfl

/-- Every index of the result's array is in the block some core's last tile writes back. -/
theorem cover_6 (i : S2x256x256.Idx) :
    ∃ t : Fin cfg0.N, (cfg0.win 6).flush t = true ∧ i ∈ ((cfg0.win 6).blk t).view.set := by
  have h0 : (i 0).val < 2 := (i 0).isLt
  have h1 : (i 1).val < 256 := (i 1).isLt
  have h2 : (i 2).val < 256 := (i 2).isLt
  have hN : grid0.N = 50 := N_0
  have hlt : 25 * (i 0).val + 24 < cfg0.N := by show 25 * (i 0).val + 24 < grid0.N; omega
  refine ⟨⟨25 * (i 0).val + 24, hlt⟩, (flush0_6 _).mpr (by show (25 * (i 0).val + 24) % 25 = 24; omega), ?_⟩
  rw [mem_blk6]
  obtain ⟨e0, e1, e2⟩ := index_6 ⟨25 * (i 0).val + 24, hlt⟩
  have e0' : win0_6.index ⟨25 * (i 0).val + 24, hlt⟩ 0 = (i 0).val := by rw [e0]; show (25 * (i 0).val + 24) / 25 = _; omega
  intro a
  match a with
  | ⟨0, _⟩ => show win0_6.index _ 0 * 1 ≤ (i 0).val ∧ (i 0).val < win0_6.index _ 0 * 1 + 1; rw [e0']; omega
  | ⟨1, _⟩ => show win0_6.index _ 1 * 256 ≤ (i 1).val ∧ (i 1).val < win0_6.index _ 1 * 256 + 256; rw [e1]; omega
  | ⟨2, _⟩ => show win0_6.index _ 2 * 256 ≤ (i 2).val ∧ (i 2).val < win0_6.index _ 2 * 256 + 256; rw [e2]; omega

/-- The result's array after the run. -/
theorem final_6 (c : Dev nD) : (valDats m 0 c).arrAt 6 cfg0.N = resultArr m c :=
  (valDats m 0 c).arrAt_eq_of_cover 6 (resultArr m c) (fun t hf => flushed_6 m c t hf) (cover_6)

end Cert.KernelIdeal.Hand

end
-- ==== Proof.ValueResult.lean ====
/-
  The idealized kernel's result. The host lines before the region stage the weights transposed (and narrowed, which
  changes nothing here) and the biases as one-row matrices, so the specification's ingredients are the arguments'
  entries: the weight entry (k, q) is the argument's (q, k), the bias entry q the argument's. The host lines after the
  region add the two blocks of the result window's array, which hold the two cores' totals; by the tile algebra that
  sum is the owner sum over all nodes. So the run ends with the program's result at the owner sums and every argument
  as it was.
-/
import proofs.«114824_j76501957477036_2_alg».proof.Proof.ValueRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx Cert.OwnerSum
open scoped BigOperators

variable (m : (ℓ : Loc nD τ sig) → Buf (Elt Ideal) ℓ) (ρ : Dev nD → PrngReg)

/-! ## The staged arguments -/

theorem wtE_eq (c : Dev nD) (k q : Fin 256) :
    wtE m c k q = (m ((c : Thread nD τ).loc main_arg2) : S256x256.Idx → EReal) (ix2 q k) := by
  unfold wtE
  have e : (V m c main_v1 : S256x256.Idx → EReal) = (truncf (F := Ideal) .bf16 (transpose S256x256 [1, 0]
      (m ((c : Thread nD τ).loc main_arg2) : S256x256.Idx → EReal) transposes_S256x256_S256x256_1_0) bitsLt_bf16_f32
        : S256x256.Idx → EReal) := by
    show StableHlo.after hostOps0 (fun b => m (c, b)) (Proc.devRef .tc main_v1) = _
    after_results
    all_goals rfl
  rw [e, truncf_apply, transpose_ix2_apply]

theorem wgE_eq (c : Dev nD) (k q : Fin 256) :
    wgE m c k q = (m ((c : Thread nD τ).loc main_arg4) : S256x256.Idx → EReal) (ix2 q k) := by
  unfold wgE
  have e : (V m c main_v3 : S256x256.Idx → EReal) = (truncf (F := Ideal) .bf16 (transpose S256x256 [1, 0]
      (m ((c : Thread nD τ).loc main_arg4) : S256x256.Idx → EReal) transposes_S256x256_S256x256_1_0) bitsLt_bf16_f32
        : S256x256.Idx → EReal) := by
    show StableHlo.after hostOps0 (fun b => m (c, b)) (Proc.devRef .tc main_v3) = _
    after_results
    all_goals rfl
  rw [e, truncf_apply, transpose_ix2_apply]

theorem btE_eq (c : Dev nD) (q : Fin 256) :
    btE m c q = (m ((c : Thread nD τ).loc main_arg3) : S256.Idx → EReal) (ix1 q) := by
  unfold btE
  have e : (V m c main_v4 : S1x256.Idx → EReal) = shapeCast S1x256
      (m ((c : Thread nD τ).loc main_arg3) : S256.Idx → EReal) shapeCasts_S256_S1x256 := by
    show StableHlo.after hostOps0 (fun b => m (c, b)) (Proc.devRef .tc main_v4) = _
    after_results
    all_goals rfl
  rw [e, shapeCast_a_1a_apply]

theorem bgE_eq (c : Dev nD) (q : Fin 256) :
    bgE m c q = (m ((c : Thread nD τ).loc main_arg5) : S256.Idx → EReal) (ix1 q) := by
  unfold bgE
  have e : (V m c main_v5 : S1x256.Idx → EReal) = shapeCast S1x256
      (m ((c : Thread nD τ).loc main_arg5) : S256.Idx → EReal) shapeCasts_S256_S1x256 := by
    show StableHlo.after hostOps0 (fun b => m (c, b)) (Proc.devRef .tc main_v5) = _
    after_results
    all_goals rfl
  rw [e, shapeCast_a_1a_apply]

theorem mkE_eq (c : Dev nD) (b : Fin 256) (n : Fin 200000) :
    mkE m c b n = ((((m ((c : Thread nD τ).loc main_arg1) : S256x200000.Idx → BitVec 32) (ix2 b n)).toInt : ℝ) : EReal) := by
  unfold mkE; rw [V_main_arg1]

theorem rowE_eq (c : Dev nD) (n : Fin 200000) (k : Fin 256) :
    rowE m c n k = (m ((c : Thread nD τ).loc main_arg0) : S200000x256.Idx → EReal) (ix2 n k) := by
  unfold rowE; rw [V_main_arg0]

/-! ## The program's result -/

/-- The owner sums, over the arguments as the region finds them, as a [256, 256] array. -/
def resultFn (c : Dev nD) : S256x256.Idx → EReal := fun i =>
  ownerSum (wtE m c) (wgE m c) (btE m c) (bgE m c) (mkE m c) (rowE m c)
    (⟨(i 0).val, (i 0).isLt⟩ : Fin 256) (⟨(i 1).val, (i 1).isLt⟩ : Fin 256)

/-- What the host lines after the region leave in the program's result: the two cores' totals added, the owner sums. -/
theorem result_eq (c : Dev nD) :
    Pipeline.afterTail₀ cfgs (valDats m) 0 (V0 m) [hostOps1] c main_v11 = resultFn m c := by
  unfold Pipeline.afterTail₀
  show StableHlo.after hostOps1 _ (Proc.devRef .tc main_v11) = _
  after_results
  rw [(Pipeline.withArrays_arr spec0 launch0.win.arr_inj c _ _ 6).trans (final_6 m c)]
  funext i
  obtain ⟨b, d, rfl⟩ : ∃ (b d : Fin 256), (i : S256x256.Idx) = ix2 b d := ⟨i 0, i 1, eq_ix2 i⟩
  show (shapeCast S256x256 (extractStridedSlice S1x256x256 ![0, 0, 0] (resultArr m c) slices_S2x256x256_S1x256x256_0_0_0)
        shapeCasts_S1x256x256_S256x256 (ix2 b d) : EReal)
      + shapeCast S256x256 (extractStridedSlice S1x256x256 ![1, 0, 0] (resultArr m c) slices_S2x256x256_S1x256x256_1_0_0)
        shapeCasts_S1x256x256_S256x256 (ix2 b d) = _
  rw [shapeCast_1ab_ab_apply, shapeCast_1ab_ab_apply,
    extractStridedSlice_apply ![0, 0, 0] (resultArr m c) slices_S2x256x256_S1x256x256_0_0_0 (ix3 (0 : Fin 1) b d) (ix3 (0 : Fin 2) b d)
      (fun a => by match a with | ⟨0, _⟩ => rfl | ⟨1, _⟩ => exact (Nat.zero_add _).symm | ⟨2, _⟩ => exact (Nat.zero_add _).symm),
    extractStridedSlice_apply ![1, 0, 0] (resultArr m c) slices_S2x256x256_S1x256x256_1_0_0 (ix3 (0 : Fin 1) b d) (ix3 (1 : Fin 2) b d)
      (fun a => by match a with | ⟨0, _⟩ => rfl | ⟨1, _⟩ => exact (Nat.zero_add _).symm | ⟨2, _⟩ => exact (Nat.zero_add _).symm)]
  show coreAcc (fun j' => tileTerms m c (25 * 0 + j') b d) 24 + coreAcc (fun j' => tileTerms m c (25 * 1 + j') b d) 24
    = ownerSum (wtE m c) (wgE m c) (btE m c) (bgE m c) (mkE m c) (rowE m c) b d
  rw [← cores_eq_ownerSum]
  unfold tileTerms
  simp only [Nat.mul_zero, Nat.zero_add, Nat.mul_one]

/-! ## The run, read -/

/-- Every weakly fair execution of the idealized kernel terminates without a fault, its result at the owner sums and
    its six arguments as they were. -/
theorem kernel_run : θ_run defs (onTc (τ := τ) (main (F := Ideal))) ⟨m, fun _ => 0, ρ⟩ (fun r => ∀ c : Dev nD,
      r.2.mem ((c.tc : Thread nD τ).loc main_v11) = resultFn m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_v11 (Pipeline.mem_restRefs_of main_v11 (by decide) (by decide))).trans (result_eq m c),
      ((h c).1 0).trans (((valDats m 0 c).arrAt_in 0 rfl _).trans ((valA_eq m c 0).trans (V_main_arg0 m c))),
      ((h c).1 1).trans (((valDats m 0 c).arrAt_in 1 rfl _).trans ((valA_eq m c 1).trans (V_main_arg1 m c))),
      (((h c).2 main_arg2 (Pipeline.mem_restRefs_of main_arg2 (by decide) (by decide))).trans (W_main_arg2 m (valDats m) c)),
      (((h c).2 main_arg3 (Pipeline.mem_restRefs_of main_arg3 (by decide) (by decide))).trans (W_main_arg3 m (valDats m) c)),
      (((h c).2 main_arg4 (Pipeline.mem_restRefs_of main_arg4 (by decide) (by decide))).trans (W_main_arg4 m (valDats m) c)),
      (((h c).2 main_arg5 (Pipeline.mem_restRefs_of main_arg5 (by decide) (by decide))).trans (W_main_arg5 m (valDats m) c))⟩)
    (value_run m ρ)

end Cert.KernelIdeal.Hand

end
-- ==== Proof.RefEntry.lean ====
/-
  The reference's result read at an entry.
-/
import proofs.«114824_j76501957477036_2_alg».proof.Proof.Gen.ReferenceIdeal.Run
import proofs.«114824_j76501957477036_2_alg».proof.Proof.Gen.ReferenceIdeal.Read
import proofs.«114824_j76501957477036_2_alg».proof.Proof.LibDenseRows
import proofs.«114824_j76501957477036_2_alg».proof.Proof.Spec

noncomputable section

namespace Cert.ReferenceIdeal.Hand

open Idealize.ShloMosaic Idealize.ShloMosaic.ValueIdx Idealize.ShloMosaic.DenseRows Cert.ReferenceIdeal Cert.ReferenceIdeal.Gen
open scoped BigOperators

/-- The data layer of the reference is a host dense layer on the transposed weights: at node n, feature d, the
    affine map of the node's row. -/
theorem data_entry (x0 : (⟨S200000x256, .f32⟩ : BufTy).Contents (Elt Ideal))
    (x2 : (⟨S256x256, .f32⟩ : BufTy).Contents (Elt Ideal)) (x3 : (⟨S256, .f32⟩ : BufTy).Contents (Elt Ideal))
    (n : Fin 200000) (d : Fin 256) :
    Read.val_main_v15 (F := Ideal) x0 x2 x3 (ix2 n d)
      = affineRow (fun k q => x2 (ix2 q k)) (fun q => x3 (ix1 q)) (fun k => x0 (ix2 n k)) d := by
  have h : Read.val_main_v15 (F := Ideal) x0 x2 x3
      = hostAffine dot_S200000x256_S256x256_S200000x256_1_0_0_1_n_n x0 (Read.val_main_v11 (F := Ideal) x2) x3
          bcast_S256_S1x256_1 bcast_S1x256_S200000x256_0_1 := rfl
  rw [h]
  refine (hostAffine_apply dot_S200000x256_S256x256_S200000x256_1_0_0_1_n_n rfl x0 _ x3 _ _ n d).trans ?_
  have hw : entries (Read.val_main_v11 (F := Ideal) x2) = fun k q => x2 (ix2 q k) := by
    funext k q
    show Read.val_main_v11 (F := Ideal) x2 (ix2 k q) = _
    rw [Read.val_main_v11_apply]
    exact congrArg x2 (funext fun a => Fin.ext (by match a with | ⟨0, _⟩ => rfl | ⟨1, _⟩ => rfl))
  rw [hw]
  rfl

/-- The gate layer of the reference is a host sigmoid layer on the transposed weights: at node n, feature d, the
    logistic function of the affine map of the node's row. -/
theorem gate_entry (x0 : (⟨S200000x256, .f32⟩ : BufTy).Contents (Elt Ideal))
    (x4 : (⟨S256x256, .f32⟩ : BufTy).Contents (Elt Ideal)) (x5 : (⟨S256, .f32⟩ : BufTy).Contents (Elt Ideal))
    (n : Fin 200000) (d : Fin 256) :
    Read.val_main_v10 (F := Ideal) x0 x4 x5 (ix2 n d)
      = logisticRow (fun k q => x4 (ix2 q k)) (fun q => x5 (ix1 q)) (fun k => x0 (ix2 n k)) d := by
  have h : Read.val_main_v10 (F := Ideal) x0 x4 x5
      = hostSigmoid dot_S200000x256_S256x256_S200000x256_1_0_0_1_n_n x0 (Read.val_main_v0 (F := Ideal) x4) x5
          bcast_S256_S1x256_1 bcast_S1x256_S200000x256_0_1 bcast_S_S200000x256 := rfl
  rw [h]
  refine (hostSigmoid_apply dot_S200000x256_S256x256_S200000x256_1_0_0_1_n_n rfl x0 _ x5 _ _ _ n d).trans ?_
  have hw : entries (Read.val_main_v0 (F := Ideal) x4) = fun k q => x4 (ix2 q k) := by
    funext k q
    show Read.val_main_v0 (F := Ideal) x4 (ix2 k q) = _
    rw [Read.val_main_v0_apply]
    exact congrArg x4 (funext fun a => Fin.ext (by match a with | ⟨0, _⟩ => rfl | ⟨1, _⟩ => rfl))
  rw [hw]
  rfl

open Idealize.ShloMosaic Idealize.ShloMosaic.ValueIdx Cert.ReferenceIdeal in
/-- The reference's result at owner `b`, feature `d`, is the owner sum: the weights enter transposed. -/
theorem ref_entry (x0 : (⟨S200000x256, .f32⟩ : BufTy).Contents (Elt Ideal)) (x1 : (⟨S256x200000, .i32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) (b d : Fin 256) :
    Cert.ReferenceIdeal.Read.val_main_v18 (F := Ideal) x0 x1 x2 x3 x4 x5 (ix2 b d)
      = Cert.OwnerSum.ownerSum (fun k q => x2 (ix2 q k)) (fun k q => x4 (ix2 q k)) (fun q => x3 (ix1 q)) (fun q => x5 (ix1 q))
          (fun b n => (((x1 (ix2 b n)).toInt : ℝ) : EReal)) (fun n k => x0 (ix2 n k)) b d := by
  rw [Read.val_main_v18_apply]
  unfold Cert.OwnerSum.ownerSum Cert.OwnerSum.gated
  refine Finset.sum_congr rfl fun n _ => ?_
  have hl : Read.lidx_main_v18 (ix2 b d) n = ix2 b n :=
    funext fun a => Fin.ext (by match a with | ⟨0, _⟩ => rfl | ⟨1, _⟩ => rfl)
  have hr : Read.ridx_main_v18 (ix2 b d) n = ix2 n d :=
    funext fun a => Fin.ext (by match a with | ⟨0, _⟩ => rfl | ⟨1, _⟩ => rfl)
  rw [hl, hr]
  show (((x1 (ix2 b n)).toInt : ℝ) : EReal)
      * (Read.val_main_v15 (F := Ideal) x0 x2 x3 (ix2 n d) * Read.val_main_v10 (F := Ideal) x0 x4 x5 (ix2 n d)) = _
  rw [data_entry, gate_entry]

end Cert.ReferenceIdeal.Hand

end
-- ==== Proof.lean ====
/-
  The certificate's five claims. The kernel sums, for each of 256 owners and 256 output features, the gated
  projections of the 200000 nodes the owner's mask selects; it does so in fifty tiles of 4096 nodes spread over two
  cores, masking the positions past the last node, and adds the two cores' totals at the end, where the reference takes
  the whole contraction at once. On the extended reals a masked term is exactly zero (x · 0 = 0 for every x) and a sum
  may be regrouped freely, so the two results are equal whatever finite or infinite values the arguments hold: the
  precondition is not used.

  The frames of the word-level kernel and of its idealization: the body is safe on any buffer contents, so the run
  terminates without a fault and the arguments, which only the host lines and the pipeline's fetches read, are as
  they were. The reference's frame is its run with the result dropped. The idealization rewrote no operation, so it
  preserves the kernel trivially. The value claim: the idealized kernel's run with the accumulator named point by
  point, and the reference's run read at an entry, end at the same owner sums.
-/
import proofs.«114824_j76501957477036_2_alg».proof.Defs
import proofs.«114824_j76501957477036_2_alg».proof.Proof.BitsFrame
import proofs.«114824_j76501957477036_2_alg».proof.Proof.IdealFrame
import proofs.«114824_j76501957477036_2_alg».proof.Proof.ValueResult
import proofs.«114824_j76501957477036_2_alg».proof.Proof.RefEntry
import proofs.«114824_j76501957477036_2_alg».proof.Proof.Gen.ReferenceIdeal.Run
import proofs.«114824_j76501957477036_2_alg».proof.Proof.Gen.ReferenceIdeal.Read
import proofs.«114824_j76501957477036_2_alg».proof.Proof.Gen.Pre_finite_inputs
import Idealize.ShloMosaic.Adequacy
import Idealize.ShloMosaic.Init

noncomputable section

namespace Cert.Proof

open Idealize.ShloMosaic Idealize.SL.Sem Idealize.ShloMosaic.ValueIdx

/-- The word-level kernel runs to its end and leaves its arguments unchanged. -/
theorem frame_kernel : Cert.frame_Kernel := fun m ρ _ => Cert.Kernel.Hand.frame_holds m ρ

/-- So does its idealization. -/
theorem frame_kernelIdeal : Cert.frame_KernelIdeal := fun m ρ _ => Cert.KernelIdeal.Hand.frame_holds m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- At the ideal instance, from memories that agree on the six arguments, both programs end at the owner sums. -/
theorem algebraic : Cert.algebraic_KernelIdeal_ReferenceIdeal := by
  intro m ρ m' ρ' _ hagree
  refine ⟨fun c => Cert.KernelIdeal.Hand.resultFn m c, Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v18_eq, a0, a1, a2, a3, a4, a5]
  funext i
  obtain ⟨b, d, rfl⟩ : ∃ (b d : Fin 256), (i : Cert.ReferenceIdeal.S256x256.Idx) = ix2 b d := ⟨i 0, i 1, eq_ix2 i⟩
  rw [Cert.ReferenceIdeal.Hand.ref_entry]
  show Cert.OwnerSum.ownerSum _ _ _ _ _ _ b d
    = Cert.OwnerSum.ownerSum (Cert.KernelIdeal.Hand.wtE m c) (Cert.KernelIdeal.Hand.wgE m c) (Cert.KernelIdeal.Hand.btE m c) (Cert.KernelIdeal.Hand.bgE m c) (Cert.KernelIdeal.Hand.mkE m c) (Cert.KernelIdeal.Hand.rowE m c) b d
  congr 1
  all_goals first
    | exact funext fun k => funext fun q => (Cert.KernelIdeal.Hand.wtE_eq m c k q).symm
    | exact funext fun k => funext fun q => (Cert.KernelIdeal.Hand.wgE_eq m c k q).symm
    | exact funext fun q => (Cert.KernelIdeal.Hand.btE_eq m c q).symm
    | exact funext fun q => (Cert.KernelIdeal.Hand.bgE_eq m c q).symm
    | exact funext fun b' => funext fun n => (Cert.KernelIdeal.Hand.mkE_eq m c b' n).symm
    | exact funext fun n => funext fun k => (Cert.KernelIdeal.Hand.rowE_eq m c n k).symm

theorem claim : Cert.Claim := ⟨Cert.Kernel.Gen.facts, Cert.KernelIdeal.Gen.facts, Cert.ReferenceIdeal.Gen.facts,
  Cert.Pre_finite_inputs.Gen.facts, frame_kernel, frame_kernelIdeal, frame_reference, trivial, algebraic⟩

end Cert.Proof

end
